-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x256 .f32) (main_arg9 : FVec F S128 .f32) (main_arg10 : FVec F S1x128 .f32) (main_arg11 : FVec F S1 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1x128 .f32 := Host.absf main_arg10
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128x128 .f32) (main_arg6 : FVec F S128 .f32) (main_arg7 : FVec F S128x128 .f32) (main_arg8 : FVec F S128x256 .f32) (main_arg9 : FVec F S128 .f32) (main_arg10 : FVec F S1x128 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x256 .f32) (main_arg9 : FVec F S128 .f32) (main_arg10 : FVec F S1x128 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S1 : Shape := ⟨1, ![1]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S800000x128 : Shape := ⟨2, ![800000, 128]⟩
abbrev S5000x128 : Shape := ⟨2, ![5000, 128]⟩
abbrev S5000x1 : Shape := ⟨2, ![5000, 1]⟩
abbrev S128x1 : Shape := ⟨2, ![128, 1]⟩
abbrev S8000x128 : Shape := ⟨2, ![8000, 128]⟩
abbrev S8000x1 : Shape := ⟨2, ![8000, 1]⟩
abbrev S1x1 : Shape := ⟨2, ![1, 1]⟩

abbrev nBuf : Space → Nat
  | .hbm => 96
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x256, .f32⟩
  | .hbm, ⟨9, _⟩ => ⟨S128, .f32⟩
  | .hbm, ⟨10, _⟩ => ⟨S1x128, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S100000, .f32⟩
  | .hbm, ⟨20, _⟩ => ⟨S800000x1, .i32⟩
  | .hbm, ⟨21, _⟩ => ⟨S100000, .f32⟩
  | .hbm, ⟨22, _⟩ => ⟨S100000x1, .f32⟩
  | .hbm, ⟨23, _⟩ => ⟨S_, .f32⟩
  | .hbm, ⟨24, _⟩ => ⟨S100000x1, .f32⟩
  | .hbm, ⟨25, _⟩ => ⟨S100000x1, .f32⟩
  | .hbm, ⟨26, _⟩ => ⟨S_, .f32⟩
  | .hbm, ⟨27, _⟩ => ⟨S100000x1, .f32⟩
  | .hbm, ⟨28, _⟩ => ⟨S100000x1, .f32⟩
  | .hbm, ⟨29, _⟩ => ⟨S128x128, .f32⟩
  | .hbm, ⟨30, _⟩ => ⟨S128x128, .bf16⟩
  | .hbm, ⟨31, _⟩ => ⟨S128x128, .f32⟩
  | .hbm, ⟨32, _⟩ => ⟨S128x128, .bf16⟩
  | .hbm, ⟨33, _⟩ => ⟨S128x128, .f32⟩
  | .hbm, ⟨34, _⟩ => ⟨S128x128, .bf16⟩
  | .hbm, ⟨35, _⟩ => ⟨S128x128, .f32⟩
  | .hbm, ⟨36, _⟩ => ⟨S128x128, .bf16⟩
  | .hbm, ⟨37, _⟩ => ⟨S100000x128, .bf16⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .bf16⟩
  | .hbm, ⟨47, _⟩ => ⟨S800000x128, .f32⟩
  | .hbm, ⟨48, _⟩ => ⟨S_, .f32⟩
  | .hbm, ⟨49, _⟩ => ⟨S100000x128, .f32⟩
  | .hbm, ⟨50, _⟩ => ⟨S800000x1, .i32⟩
  | .hbm, ⟨51, _⟩ => ⟨S100000x128, .f32⟩
  | .hbm, ⟨52, _⟩ => ⟨S100000x128, .bf16⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .bf16⟩
  | .hbm, ⟨62, _⟩ => ⟨S800000x128, .f32⟩
  | .hbm, ⟨63, _⟩ => ⟨S_, .f32⟩
  | .hbm, ⟨64, _⟩ => ⟨S100000x128, .f32⟩
  | .hbm, ⟨65, _⟩ => ⟨S800000x1, .i32⟩
  | .hbm, ⟨66, _⟩ => ⟨S100000x128, .f32⟩
  | .hbm, ⟨67, _⟩ => ⟨S100000x128, .bf16⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .bf16⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .bf16⟩
  | .hbm, ⟨86, _⟩ => ⟨S128x128, .f32⟩
  | .hbm, ⟨87, _⟩ => ⟨S128x128, .f32⟩
  | .hbm, ⟨88, _⟩ => ⟨S128x128, .bf16⟩
  | .hbm, ⟨89, _⟩ => ⟨S128x128, .f32⟩
  | .hbm, ⟨90, _⟩ => ⟨S128x128, .f32⟩
  | .hbm, ⟨91, _⟩ => ⟨S128x128, .bf16⟩
  | .hbm, ⟨92, _⟩ => ⟨S128x1, .f32⟩
  | .hbm, ⟨93, _⟩ => ⟨S128x1, .bf16⟩
  | .hbm, ⟨94, _⟩ => ⟨S800000x1, .f32⟩
  | .hbm, ⟨95, _⟩ => ⟨S800000, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .bf16⟩
  | .local _ .vmem, ⟨5, _⟩ => ⟨S5000x128, .bf16⟩
  | .local _ .vmem, ⟨6, _⟩ => ⟨S128x128, .bf16⟩
  | .local _ .vmem, ⟨7, _⟩ => ⟨S128, .f32⟩
  | .local _ .vmem, ⟨8, _⟩ => ⟨S128x128, .bf16⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .bf16⟩
  | .local _ .vmem, ⟨16, _⟩ => ⟨S5000x128, .bf16⟩
  | .local _ .vmem, ⟨17, _⟩ => ⟨S128x128, .bf16⟩
  | .local _ .vmem, ⟨18, _⟩ => ⟨S128, .f32⟩
  | .local _ .vmem, ⟨19, _⟩ => ⟨S128x128, .bf16⟩
  | .local _ .vmem, ⟨20, _⟩ => ⟨S5000x128, .bf16⟩
  | .local _ .vmem, ⟨21, _⟩ => ⟨S5000x128, .bf16⟩
  | .local _ .vmem, ⟨22, _⟩ => ⟨S8000x128, .bf16⟩
  | .local _ .vmem, ⟨23, _⟩ => ⟨S8000x128, .bf16⟩
  | .local _ .vmem, ⟨24, _⟩ => ⟨S8000x128, .bf16⟩
  | .local _ .vmem, ⟨25, _⟩ => ⟨S8000x128, .bf16⟩
  | .local _ .vmem, ⟨26, _⟩ => ⟨S128x128, .bf16⟩
  | .local _ .vmem, ⟨27, _⟩ => ⟨S128x128, .bf16⟩
  | .local _ .vmem, ⟨28, _⟩ => ⟨S128, .f32⟩
  | .local _ .vmem, ⟨29, _⟩ => ⟨S128x1, .bf16⟩
  | .local _ .vmem, ⟨30, _⟩ => ⟨S1, .f32⟩
  | .local _ .vmem, ⟨31, _⟩ => ⟨S8000x1, .f32⟩
  | .local _ .vmem, ⟨32, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  bcast_S_S100000x1 : S_.BroadcastsInDim S100000x1 (![] : Fin 0 → Fin S100000x1.rank)
  transposes_S128x128_S128x128_1_0 : S128x128.Transposes [1, 0] S128x128
  bitsLt_bf16_f32 : FTy.bits .bf16 < FTy.bits .f32
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  slices_S128x256_S128x128_0_0 : S128x256.Slices ![0, 0] S128x128
  slices_S128x256_S128x128_0_128 : S128x256.Slices ![0, 128] S128x128
  transposes_S1x128_S128x1_1_0 : S1x128.Transposes [1, 0] S128x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  broadcasts_S1x128_S8000x128 : S1x128.Broadcasts S8000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S800000x1_S800000 : S800000x1.ShapeCasts S800000
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .bf16 = 32 ∨ (Rect.block (s := S100000x128) S5000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .bf16 = 32 ∨ (Rect.block (s := S100000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .bf16 = 32 ∨ (Rect.block (s := S100000x128) S5000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .bf16 = 32 ∨ (Rect.block (s := S100000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .bf16 = 32 ∨ (Rect.block (s := S800000x128) S8000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .bf16 = 32 ∨ (Rect.block (s := S800000x128) S8000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .bf16 = 32 ∨ (Rect.block (s := S128x1) S128x1.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1.size a ≤ S1.size a
  hwx2_6 : ∀ i : grid2.Coords, EltTy.bits .f32 = 32 ∨ (Rect.block (s := S1) S1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8000x1.size a ≤ S800000x1.size a
  hwx2_7 : ∀ i : grid2.Coords, EltTy.bits .f32 = 32 ∨ (Rect.block (s := S800000x1) S8000x1.size (cc2_transform_7 i) (hinb2_7 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_v32) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v52) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v68) S8000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S800000x256 : Shape := ⟨2, ![800000, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x256, .f32⟩
  | 9 => ⟨S128, .f32⟩
  | 10 => ⟨S1x128, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S100000x128, .f32⟩
  | 27 => ⟨S800000x1, .i32⟩
  | 28 => ⟨S100000x128, .f32⟩
  | 29 => ⟨S_, .f32⟩
  | 30 => ⟨S800000, .f32⟩
  | 31 => ⟨S_, .f32⟩
  | 32 => ⟨S100000, .f32⟩
  | 33 => ⟨S800000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x128, .f32⟩
  | 40 => ⟨S100000x128, .f32⟩
  | 41 => ⟨S128x128, .f32⟩
  | 42 => ⟨S100000x128, .f32⟩
  | 43 => ⟨S1x128, .f32⟩
  | 44 => ⟨S100000x128, .f32⟩
  | 45 => ⟨S100000x128, .f32⟩
  | 46 => ⟨S128x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S_, .f32⟩
  | 62 => ⟨S100000x128, .f32⟩
  | 63 => ⟨S800000x1, .i32⟩
  | 64 => ⟨S100000x128, .f32⟩
  | 65 => ⟨S_, .f32⟩
  | 66 => ⟨S800000, .f32⟩
  | 67 => ⟨S_, .f32⟩
  | 68 => ⟨S100000, .f32⟩
  | 69 => ⟨S800000x1, .i32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S128x128, .f32⟩
  | 78 => ⟨S100000x128, .f32⟩
  | 79 => ⟨S1x128, .f32⟩
  | 80 => ⟨S100000x128, .f32⟩
  | 81 => ⟨S100000x128, .f32⟩
  | 82 => ⟨S128x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S800000x256, .f32⟩
  | 107 => ⟨S256x128, .f32⟩
  | 108 => ⟨S800000x128, .f32⟩
  | 109 => ⟨S1x128, .f32⟩
  | 110 => ⟨S800000x128, .f32⟩
  | 111 => ⟨S800000x128, .f32⟩
  | 112 => ⟨S_, .f32⟩
  | 113 => ⟨S800000x128, .f32⟩
  | 114 => ⟨S800000x128, .f32⟩
  | 115 => ⟨S128x1, .f32⟩
  | 116 => ⟨S800000x1, .f32⟩
  | 117 => ⟨S1x1, .f32⟩
  | 118 => ⟨S800000x1, .f32⟩
  | 119 => ⟨S800000x1, .f32⟩
  | 120 => ⟨S800000, .f32⟩
  | 121 => ⟨S800000, .f32⟩
  | 122 => ⟨S800000, .f32⟩
  | 123 => ⟨S_, .f32⟩
  | 124 => ⟨S800000, .f32⟩
  | 125 => ⟨S800000, .f32⟩
  | 126 => ⟨S_, .f32⟩
  | 127 => ⟨S800000, .f32⟩
  | _ => ⟨S100000x128, .f32⟩

abbrev hbmTy0_1 (i : Nat) : BufTy := match i % 128 with
  | 0 => ⟨S800000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_c_10 : Ref sig .tc := ⟨.hbm, 88, rfl⟩
abbrev main_v60 : Ref sig .tc := ⟨.hbm, 89, rfl⟩
abbrev main_v61 : Ref sig .tc := ⟨.hbm, 90, rfl⟩
abbrev main_c_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call2_cst : Ref sig .tc := ⟨.hbm, 112, rfl⟩
abbrev main_call2_v0 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_14 : Ref sig .tc := ⟨.hbm, 123, rfl⟩
abbrev main_v89 : Ref sig .tc := ⟨.hbm, 124, rfl⟩
abbrev main_v90 : Ref sig .tc := ⟨.hbm, 125, rfl⟩
abbrev main_cst_15 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S800000x128_S800000x128_S800000x256_d1 : Shape.Concatenates [S800000x128, S800000x128] S800000x256 1
  transposes_S128x256_S256x128_1_0 : S128x256.Transposes [1, 0] S256x128
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  transposes_S1x128_S128x1_1_0 : S1x128.Transposes [1, 0] S128x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  dot_S800000x256_S256x128_S800000x128_1_0_0_1_n_n_wf : DotDims.WF S800000x256 S256x128 S800000x128 [1] [0] [0] [1] [] []
  dot_S800000x128_S128x1_S800000x1_1_0_0_1_n_n_wf : DotDims.WF S800000x128 S128x1 S800000x1 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.KernelRun.lean ====
/-
  The tiled program's run with its result named.

  The program is three launches among four stretches of host operations. Its frame proof walks the buffer contents
  from the launch memory through every stretch and every launch to the contents at the return; the same walk, read
  at the result buffer as well as at the twelve arguments, says what the result holds when the program ends: the
  last stretch's contents at that buffer.
-/
import proofs.«132477_j85744727097864_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the result buffer at the last
    boundary's contents and the twelve arguments as launched. -/
theorem run_value : θ_run defs (onTc (τ := τ) (main (F := F))) ⟨m, fun _ => 0, ρ⟩ (fun r => ∀ c : Dev nD,
      r.2.mem ((c.tc : Thread nD τ).loc main_v69) = W7 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v69 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.ValueRun

end
-- ==== Proof.Spec.lean ====
/-
  The mathematics of this certificate, free of either program.

  A mean-aggregating graph layer sends node features X to
      relu( (A / max(deg, 1)) · Wlᵀ + X · Wrᵀ + b ),
  where A is the neighbour sum of X and deg the in-degree; an edge scorer sends the two end-point feature
  rows hs, hd of an edge to
      logistic( relu( [hs | hd] · Wm1ᵀ + bm1 ) · Wm2ᵀ + bm2 ).
  Each is written twice below: once in the spelling the tiled program uses (weights already transposed, the
  reciprocal 1 / max(deg, 1) as a one-column matrix, the 256-wide product as two 128-wide ones) and once in the
  spelling of the plain program (the weights as given, the degree as a vector, one 256-wide product). The two
  spellings agree on every extended real: dividing by d = max(deg, 1) is multiplying by d⁻¹ because d ≥ 1 is never
  zero, adding the bias before or after the second product is commutativity of +, and a sum over 256 columns is
  the sum over the first 128 plus the sum over the last 128. No entry has to be finite for any of this.
-/
import Idealize.ShloMosaic.PureOps.Ideal
import Idealize.ShloMosaic.Lib.ValueIdx

noncomputable section

namespace Cert.Sage

open Idealize.ShloMosaic Idealize.ShloMosaic.ValueIdx

/-- A matrix of extended reals, indexed as the programs index a rank-2 array. -/
abbrev Mat (r c : Nat) : Type := (⟨2, ![r, c]⟩ : Shape).Idx → EReal
/-- A vector of extended reals, indexed as the programs index a rank-1 array. -/
abbrev Vct (n : Nat) : Type := (⟨1, ![n]⟩ : Shape).Idx → EReal

/-! ## The two float words the programs spell -/

/-- The word of `+0.0` denotes 0. -/
theorem ofBits_zero : Ideal.ofBits .f32 0x00000000#32 = 0 := by
  simp [Ideal.ofBits, Ideal.ieee]

/-- The word of `1.0` denotes 1. -/
theorem ofBits_one : Ideal.ofBits .f32 0x3F800000#32 = 1 := by
  simp [Ideal.ofBits, Ideal.ieee, -EReal.coe_mul]; norm_num

/-! ## Dividing by a degree clamped below at one -/

/-- A degree clamped below at one is not zero. -/
theorem max_one_ne_zero (d : EReal) : max d 1 ≠ 0 :=
  ne_of_gt (lt_of_lt_of_le zero_lt_one (le_max_right d 1))

/-- The quotient by a clamped degree is the product with its inverse, whatever the numerator. -/
theorem div_max_one (a d : EReal) : Ideal.div a (max d 1) = a * (max d 1)⁻¹ := by
  rw [Ideal.div, if_neg (max_one_ne_zero d)]

/-- The product with the reciprocal of a clamped degree is the product with its inverse. -/
theorem mul_div_one_max (a d : EReal) : a * Ideal.div 1 (max d 1) = a * (max d 1)⁻¹ := by
  rw [div_max_one, one_mul]

/-! ## One layer -/

/-- Entry (p, q) of a layer as the tiled program computes it: `A` the neighbour sums, `inv` the column of
    reciprocal degrees, `X` the node features, `WlT`, `WrT` the transposed weights, `b` the bias. -/
def layerKAt {R : Nat} (A : Mat R 128) (inv : Mat R 1) (X : Mat R 128) (WlT : Mat 128 128) (b : Vct 128)
    (WrT : Mat 128 128) (p : Fin R) (q : Fin 128) : EReal :=
  max (((∑ k : Fin 128, (A (ix2 p k) * inv (ix2 p 0)) * WlT (ix2 k q))
        + ∑ k : Fin 128, X (ix2 p k) * WrT (ix2 k q)) + b (ix1 q)) 0

/-- The layer of the tiled program, as a matrix. -/
def layerK {R : Nat} (A : Mat R 128) (inv : Mat R 1) (X : Mat R 128) (WlT : Mat 128 128) (b : Vct 128)
    (WrT : Mat 128 128) : Mat R 128 :=
  fun j => layerKAt A inv X WlT b WrT (j 0) (j 1)

theorem layerK_ix2 {R : Nat} (A : Mat R 128) (inv : Mat R 1) (X : Mat R 128) (WlT : Mat 128 128) (b : Vct 128)
    (WrT : Mat 128 128) (p : Fin R) (q : Fin 128) :
    layerK A inv X WlT b WrT (ix2 p q) = layerKAt A inv X WlT b WrT p q := rfl

/-- Entry (p, q) of a layer over the weights as given and the degree vector `d`. -/
def layerAt {R : Nat} (A : Mat R 128) (d : Vct R) (X : Mat R 128) (Wl : Mat 128 128) (b : Vct 128)
    (Wr : Mat 128 128) (p : Fin R) (q : Fin 128) : EReal :=
  max (((∑ k : Fin 128, (A (ix2 p k) * (max (d (ix1 p)) 1)⁻¹) * Wl (ix2 q k))
        + ∑ k : Fin 128, X (ix2 p k) * Wr (ix2 q k)) + b (ix1 q)) 0

/-- The layer, as a matrix. -/
def layer {R : Nat} (A : Mat R 128) (d : Vct R) (X : Mat R 128) (Wl : Mat 128 128) (b : Vct 128)
    (Wr : Mat 128 128) : Mat R 128 :=
  fun j => layerAt A d X Wl b Wr (j 0) (j 1)

theorem layer_ix2 {R : Nat} (A : Mat R 128) (d : Vct R) (X : Mat R 128) (Wl : Mat 128 128) (b : Vct 128)
    (Wr : Mat 128 128) (p : Fin R) (q : Fin 128) :
    layer A d X Wl b Wr (ix2 p q) = layerAt A d X Wl b Wr p q := rfl

/-- The tiled program's layer is the layer: its reciprocal column holds 1 / max(deg, 1) and its weights are the
    transposes. -/
theorem layerKAt_eq_layerAt {R : Nat} (A : Mat R 128) (inv : Mat R 1) (d : Vct R) (X : Mat R 128)
    (WlT Wl : Mat 128 128) (b : Vct 128) (WrT Wr : Mat 128 128)
    (hinv : ∀ p : Fin R, inv (ix2 p 0) = Ideal.div 1 (max (d (ix1 p)) 1))
    (hl : ∀ k q : Fin 128, WlT (ix2 k q) = Wl (ix2 q k)) (hr : ∀ k q : Fin 128, WrT (ix2 k q) = Wr (ix2 q k))
    (p : Fin R) (q : Fin 128) :
    layerKAt A inv X WlT b WrT p q = layerAt A d X Wl b Wr p q := by
  simp only [layerKAt, layerAt, hinv, hl, hr, mul_div_one_max]

/-- The same, matrix against matrix. -/
theorem layerK_eq_layer {R : Nat} (A : Mat R 128) (inv : Mat R 1) (d : Vct R) (X : Mat R 128)
    (WlT Wl : Mat 128 128) (b : Vct 128) (WrT Wr : Mat 128 128)
    (hinv : ∀ p : Fin R, inv (ix2 p 0) = Ideal.div 1 (max (d (ix1 p)) 1))
    (hl : ∀ k q : Fin 128, WlT (ix2 k q) = Wl (ix2 q k)) (hr : ∀ k q : Fin 128, WrT (ix2 k q) = Wr (ix2 q k)) :
    layerK A inv X WlT b WrT = layer A d X Wl b Wr :=
  funext fun j => layerKAt_eq_layerAt A inv d X WlT Wl b WrT Wr hinv hl hr (j 0) (j 1)

/-! ## The edge scorer -/

/-- The score of edge `e` as the tiled program computes it: `W1`, `W2` the transposed halves of the first
    weight, `w` the transposed second weight. -/
def edgeKAt {R : Nat} (hs hd : Mat R 128) (W1 W2 : Mat 128 128) (b1 : Vct 128) (w : Mat 128 1) (b2 : Vct 1)
    (e : Fin R) : EReal :=
  Ideal.logistic ((∑ i : Fin 128,
      max (((∑ k : Fin 128, hs (ix2 e k) * W1 (ix2 k i)) + ∑ k : Fin 128, hd (ix2 e k) * W2 (ix2 k i))
            + b1 (ix1 i)) 0 * w (ix2 i 0)) + b2 (ix1 0))

/-- The scores of the tiled program, as a one-column matrix. -/
def edgeK {R : Nat} (hs hd : Mat R 128) (W1 W2 : Mat 128 128) (b1 : Vct 128) (w : Mat 128 1) (b2 : Vct 1) :
    Mat R 1 :=
  fun j => edgeKAt hs hd W1 W2 b1 w b2 (j 0)

theorem edgeK_ix2 {R : Nat} (hs hd : Mat R 128) (W1 W2 : Mat 128 128) (b1 : Vct 128) (w : Mat 128 1) (b2 : Vct 1)
    (e : Fin R) (z : Fin 1) : edgeK hs hd W1 W2 b1 w b2 (ix2 e z) = edgeKAt hs hd W1 W2 b1 w b2 e := rfl

/-- The score of edge `e` over the weights as given: the first weight's columns 0 … 127 meet the source row,
    its columns 128 … 255 the destination row. -/
def edgeAt {R : Nat} (hs hd : Mat R 128) (Wm1 : Mat 128 256) (bm1 : Vct 128) (Wm2 : Mat 1 128) (bm2 : Vct 1)
    (e : Fin R) : EReal :=
  Ideal.logistic ((∑ i : Fin 128,
      max (((∑ k : Fin 128, hs (ix2 e k) * Wm1 (ix2 i (Fin.castAdd 128 k)))
            + ∑ k : Fin 128, hd (ix2 e k) * Wm1 (ix2 i (Fin.natAdd 128 k))) + bm1 (ix1 i)) 0 * Wm2 (ix2 0 i))
    + bm2 (ix1 0))

/-- The scores, as a vector. -/
def edge {R : Nat} (hs hd : Mat R 128) (Wm1 : Mat 128 256) (bm1 : Vct 128) (Wm2 : Mat 1 128) (bm2 : Vct 1) :
    Vct R :=
  fun j => edgeAt hs hd Wm1 bm1 Wm2 bm2 (j 0)

theorem edge_ix1 {R : Nat} (hs hd : Mat R 128) (Wm1 : Mat 128 256) (bm1 : Vct 128) (Wm2 : Mat 1 128) (bm2 : Vct 1)
    (e : Fin R) : edge hs hd Wm1 bm1 Wm2 bm2 (ix1 e) = edgeAt hs hd Wm1 bm1 Wm2 bm2 e := rfl

/-- The tiled program's score is the score: its first-layer weights are the transposed halves and its second
    weight the transpose. -/
theorem edgeKAt_eq_edgeAt {R : Nat} (hs hd : Mat R 128) (W1 W2 : Mat 128 128) (Wm1 : Mat 128 256) (b1 : Vct 128)
    (w : Mat 128 1) (Wm2 : Mat 1 128) (b2 : Vct 1)
    (h1 : ∀ k i : Fin 128, W1 (ix2 k i) = Wm1 (ix2 i (Fin.castAdd 128 k)))
    (h2 : ∀ k i : Fin 128, W2 (ix2 k i) = Wm1 (ix2 i (Fin.natAdd 128 k)))
    (hw : ∀ i : Fin 128, w (ix2 i 0) = Wm2 (ix2 0 i)) (e : Fin R) :
    edgeKAt hs hd W1 W2 b1 w b2 e = edgeAt hs hd Wm1 b1 Wm2 b2 e := by
  simp only [edgeKAt, edgeAt, h1, h2, hw]

/-! ## The whole network

  `aggr` sums a feature matrix over each node's in-neighbours, `gs` and `gd` read a feature matrix at every edge's
  source and destination, `d` is the in-degree; the network is two layers and the edge scorer. Which rows `aggr`,
  `gs` and `gd` touch depends on the edge list only, so they stay abstract here. -/

/-- Two layers, then the scorer on the end-point rows of every edge. -/
def model {N E : Nat} (aggr : Mat N 128 → Mat N 128) (gs gd : Mat N 128 → Mat E 128) (d : Vct N)
    (x : Mat N 128) (W1l : Mat 128 128) (b1 : Vct 128) (W1r W2l : Mat 128 128) (b2 : Vct 128) (W2r : Mat 128 128)
    (Wm1 : Mat 128 256) (bm1 : Vct 128) (Wm2 : Mat 1 128) (bm2 : Vct 1) : Vct E :=
  edge (gs (layer (aggr (layer (aggr x) d x W1l b1 W1r)) d (layer (aggr x) d x W1l b1 W1r) W2l b2 W2r))
       (gd (layer (aggr (layer (aggr x) d x W1l b1 W1r)) d (layer (aggr x) d x W1l b1 W1r) W2l b2 W2r))
       Wm1 bm1 Wm2 bm2

end Cert.Sage

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LayerBody.lean ====
/-
  The body of the layer kernel read at one entry, on the extended reals.

  On a block of 5000 rows the body scales each row of the neighbour sums A by the row's reciprocal degree, multiplies
  the scaled block by the left weight and the feature block X by the right weight (two matrix products into zero
  accumulators), adds the two products, adds the bias to every row and takes the maximum with zero.  The two
  roundings to a narrower float format are the identity on the extended reals.  Entry (p, q) of the result is

      max ( (∑ k, (A[p,k] · inv[p,0]) · WlT[k,q]  +  ∑ k, X[p,k] · WrT[k,q])  +  b[q] , 0 ),

  the entry of the layer in the tiled program's spelling.  The two launches of the layer have the same body.
-/
import proofs.«132477_j85744727097864_2_alg».proof.Proof.Gen.KernelIdeal.Skeleton
import proofs.«132477_j85744727097864_2_alg».proof.Proof.Spec
import proofs.«132477_j85744727097864_2_alg».proof.Proof.LibLayout

set_option maxRecDepth 16384

noncomputable section

namespace Cert.KernelIdeal.RegionValue

open Idealize.ShloMosaic Idealize.ShloMosaic.ValueIdx Cert.KernelIdeal Cert.KernelIdeal.Gen

/-- The product's dimension record: the left operand's columns against the right operand's rows. -/
abbrev dotRC : DotDims S5000x128 S128x128 S5000x128 := dot_S5000x128_S128x128_S5000x128_1_0_0_1_n_n

/-- The left operand is read in the result's row. -/
theorem dotRC_l0 (j : S5000x128.Idx) (k : dotRC.contr.Idx) : (dotRC.lhsIdx j k 0).val = (j 0).val := by
  unfold DotDims.lhsIdx
  rw [dif_neg (show ¬(0 : Fin S5000x128.rank) ∈ dotRC.lhsBatch by decide),
    dif_pos (show (0 : Fin S5000x128.rank) ∈ dotRC.lhsNonContracting by decide)]
  rfl

/-- The right operand is read in the result's column. -/
theorem dotRC_r1 (j : S5000x128.Idx) (k : dotRC.contr.Idx) : (dotRC.rhsIdx j k 1).val = (j 1).val := by
  unfold DotDims.rhsIdx
  rw [dif_neg (show ¬(1 : Fin S128x128.rank) ∈ dotRC.rhsBatch by decide),
    dif_pos (show (1 : Fin S128x128.rank) ∈ dotRC.rhsNonContracting by decide)]
  rfl

/-- A block times a weight, into a zero accumulator: entry (p, q) is the sum over k of L[p,k] · R[k,q]. -/
theorem blockProduct_apply {φ₁ φ₂ : FTy} (L : FVec Ideal S5000x128 φ₁) (R : FVec Ideal S128x128 φ₂)
    (p : Fin 5000) (q : Fin 128) :
    matmul dotRC none L R (constant (F := Ideal) S5000x128 .f32 0x00000000#32) (ix2 p q)
      = ∑ k : Fin 128, L (ix2 p k) * R (ix2 k q) :=
  Cert.LibLayout.matmul_rows_cols_apply dotRC rfl rfl rfl rfl dotRC_l0 dotRC_r1 none L R p q

/-- The body's arithmetic at entry (p, q), stated over the operations themselves. -/
theorem body_apply (A : FVec Ideal S5000x128 .f32) (inv : FVec Ideal S5000x1 .f32) (X : FVec Ideal S5000x128 .bf16)
    (WlT WrT : FVec Ideal S128x128 .bf16) (b : FVec Ideal S128 .f32) (p : Fin 5000) (q : Fin 128) :
    (truncf .bf16
      (maximumf
        (addf
          (addf
            (matmul dotRC none
              (truncf .bf16 (mulf A (broadcastTo S5000x128 inv broadcasts_S5000x1_S5000x128)) bitsLt_bf16_f32) WlT
              (constant (F := Ideal) S5000x128 .f32 0x00000000#32))
            (matmul dotRC none X WrT (constant (F := Ideal) S5000x128 .f32 0x00000000#32)))
          (broadcastTo S5000x128 (shapeCast S1x128 b shapeCasts_S128_S1x128) broadcasts_S1x128_S5000x128))
        (broadcast S5000x128 (Scalar.ofBits (F := Ideal) .f32 0x00000000#32)))
      bitsLt_bf16_f32 : FVec Ideal S5000x128 .bf16) (ix2 p q)
      = Cert.Sage.layerKAt A inv X WlT b WrT p q := by
  rw [truncf_apply, maximumf_apply, addf_apply, addf_apply, blockProduct_apply, blockProduct_apply,
    Cert.LibLayout.rowBias_apply b shapeCasts_S128_S1x128 broadcasts_S1x128_S5000x128 p q, broadcast_apply]
  unfold Cert.Sage.layerKAt
  refine congrArg₂ max (congrArg₂ (· + ·) (congrArg₂ (· + ·) (Finset.sum_congr rfl fun k _ => ?_) rfl) rfl)
    Cert.Sage.ofBits_zero
  rw [truncf_apply, mulf_apply, Cert.LibLayout.broadcastTo_a1_ab_apply inv broadcasts_S5000x1_S5000x128 p k]

/-- The first launch's payload at entry (p, q) is the layer's entry. -/
theorem k0_pay1_apply (x0 : Vec Ideal S5000x128 .f32) (x1 : Vec Ideal S5000x1 .f32) (x2 : Vec Ideal S5000x128 .bf16)
    (x3 : Vec Ideal S128x128 .bf16) (x4 : Vec Ideal S128 .f32) (x5 : Vec Ideal S128x128 .bf16)
    (p : Fin 5000) (q : Fin 128) :
    k0_pay1 (F := Ideal) x0 x1 x2 x3 x5 x4 (ix2 p q) = Cert.Sage.layerKAt x0 x1 x2 x3 x4 x5 p q := by
  unfold k0_pay1
  simp only [shapeCast_self]
  exact body_apply x0 x1 x2 x3 x5 x4 p q

/-- The second launch's payload at entry (p, q) is the layer's entry. -/
theorem k1_pay1_apply (x0 : Vec Ideal S5000x128 .f32) (x1 : Vec Ideal S5000x1 .f32) (x2 : Vec Ideal S5000x128 .bf16)
    (x3 : Vec Ideal S128x128 .bf16) (x4 : Vec Ideal S128 .f32) (x5 : Vec Ideal S128x128 .bf16)
    (p : Fin 5000) (q : Fin 128) :
    k1_pay1 (F := Ideal) x0 x1 x2 x3 x5 x4 (ix2 p q) = Cert.Sage.layerKAt x0 x1 x2 x3 x4 x5 p q := by
  unfold k1_pay1
  simp only [shapeCast_self]
  exact body_apply x0 x1 x2 x3 x5 x4 p q

/-- Rows of a block are rows of the array: if the three row-blocked operands of the body hold the rows
    5000·r, 5000·r + 1, … of three arrays of 100000 rows, and the weights and the bias are the given ones, a block
    whose entries are the layer's entries of the operands holds the rows 5000·r, … of the layer of the arrays. -/
theorem layer_rows (w : S5000x128.Idx → EReal)
    (x0 : Vec Ideal S5000x128 .f32) (x1 : Vec Ideal S5000x1 .f32) (x2 : Vec Ideal S5000x128 .bf16)
    (x3 : Vec Ideal S128x128 .bf16) (x4 : Vec Ideal S128 .f32) (x5 : Vec Ideal S128x128 .bf16)
    (hw : ∀ (p : Fin 5000) (q : Fin 128), w (ix2 p q) = Cert.Sage.layerKAt x0 x1 x2 x3 x4 x5 p q)
    (A : Cert.Sage.Mat 100000 128) (inv : Cert.Sage.Mat 100000 1) (X : Cert.Sage.Mat 100000 128)
    (WlT : Cert.Sage.Mat 128 128) (b : Cert.Sage.Vct 128) (WrT : Cert.Sage.Mat 128 128) (r : ℕ)
    (h0 : ∀ (y : S5000x128.Idx) (i : S100000x128.Idx),
      (i 0).val = r * 5000 + (y 0).val → (i 1).val = (y 1).val → x0 y = A i)
    (h1 : ∀ (y : S5000x1.Idx) (i : S100000x1.Idx),
      (i 0).val = r * 5000 + (y 0).val → (i 1).val = (y 1).val → x1 y = inv i)
    (h2 : ∀ (y : S5000x128.Idx) (i : S100000x128.Idx),
      (i 0).val = r * 5000 + (y 0).val → (i 1).val = (y 1).val → x2 y = X i)
    (h3 : x3 = WlT) (h4 : x4 = b) (h5 : x5 = WrT)
    (j : S5000x128.Idx) (i : S100000x128.Idx) (hi0 : (i 0).val = r * 5000 + (j 0).val) (hi1 : (i 1).val = (j 1).val) :
    w j = Cert.Sage.layerK A inv X WlT b WrT i := by
  subst h3 h4 h5
  obtain ⟨p, q, rfl⟩ : ∃ (p : Fin 5000) (q : Fin 128), j = ix2 p q := ⟨j 0, j 1, eq_ix2 j⟩
  obtain ⟨P, Q, rfl⟩ : ∃ (P : Fin 100000) (Q : Fin 128), i = ix2 P Q := ⟨i 0, i 1, eq_ix2 i⟩
  obtain rfl : Q = q := Fin.ext hi1
  rw [hw, Cert.Sage.layerK_ix2]
  unfold Cert.Sage.layerKAt
  rw [h1 (ix2 p 0) (ix2 P 0) hi0 rfl]
  refine congrArg₂ max (congrArg₂ (· + ·) (congrArg₂ (· + ·) (Finset.sum_congr rfl fun k _ => ?_)
    (Finset.sum_congr rfl fun k _ => ?_)) rfl) rfl
  · rw [h0 (ix2 p k) (ix2 P k) hi0 rfl]
  · rw [h2 (ix2 p k) (ix2 P k) hi0 rfl]

/-- The offsets of a whole-buffer access, however the zeros are spelt. -/
theorem zeros2 : (![0, 0] : Fin 2 → Nat) = fun _ => 0 := funext fun a => by fin_cases a <;> rfl
theorem zeros1 : (![0] : Fin 1 → Nat) = fun _ => 0 := funext fun a => by fin_cases a <;> rfl

end Cert.KernelIdeal.RegionValue

end
-- ==== Proof.Region0.lean ====
/-
  The first layer launch: the array its result window leaves is the layer of the arrays the launch finds.

  The launch walks 20 grid points.  At point t the windows of the neighbour sums, the reciprocal degrees, the node
  features and the result hold rows 5000·t … 5000·t + 4999 of their arrays; the two weights and the bias are whole at
  every point.  The body leaves in the result's block the layer's entries of those rows, so point t writes back the
  rows 5000·t … of the layer of the whole arrays, and the 20 blocks cover the 100000 rows: row r lies in the block
  of point r / 5000.
-/
import proofs.«132477_j85744727097864_2_alg».proof.Proof.Gen.KernelIdeal.Frame
import proofs.«132477_j85744727097864_2_alg».proof.Proof.LayerBody
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Where each window's block sits at point t: the row-blocked windows at block row t, the whole ones at zero. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The block of the neighbour sums at point t, entry by entry. -/
theorem iblk0_0_apply (c : Dev nD) (t : Fin cfg0.N) (y : S5000x128.Idx) (i : S100000x128.Idx)
    (h0 : (i 0).val = t.val * 5000 + (y 0).val) (h1 : (i 1).val = (y 1).val) :
    (iblk0 (F := Ideal) V c 0 t : Vec Ideal S5000x128 .f32) y = (V c main_v32 : S100000x128.Idx → EReal) i := by
  obtain ⟨e0, e1, -⟩ := blockIndex0 t
  unfold iblk0
  rw [View.read_apply]
  show V c main_v32 _ = V c main_v32 _
  refine congrArg (V c main_v32) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The block of the reciprocal degrees at point t. -/
theorem iblk0_1_apply (c : Dev nD) (t : Fin cfg0.N) (y : S5000x1.Idx) (i : S100000x1.Idx)
    (h0 : (i 0).val = t.val * 5000 + (y 0).val) (h1 : (i 1).val = (y 1).val) :
    (iblk0 (F := Ideal) V c 1 t : Vec Ideal S5000x1 .f32) y = (V c main_v12 : S100000x1.Idx → EReal) i := by
  obtain ⟨-, -, e0, e1, -⟩ := blockIndex0 t
  unfold iblk0
  rw [View.read_apply]
  show V c main_v12 _ = V c main_v12 _
  refine congrArg (V c main_v12) (funext fun a => Fin.ext ?_)
  match a with
  | ⟨0, _⟩ => show win0_1.index t (0 : Fin 2) * 5000 + 1 * (y 0).val = (i 0).val; rw [e0, h0]; omega
  | ⟨1, _⟩ => show win0_1.index t (1 : Fin 2) * 1 + 1 * (y 1).val = (i 1).val; rw [e1, h1]; omega

/-- The block of the node features at point t. -/
theorem iblk0_2_apply (c : Dev nD) (t : Fin cfg0.N) (y : S5000x128.Idx) (i : S100000x128.Idx)
    (h0 : (i 0).val = t.val * 5000 + (y 0).val) (h1 : (i 1).val = (y 1).val) :
    (iblk0 (F := Ideal) V c 2 t : Vec Ideal S5000x128 .bf16) y = (V c main_v21 : S100000x128.Idx → EReal) i := by
  obtain ⟨-, -, -, -, e0, e1, -⟩ := blockIndex0 t
  unfold iblk0
  rw [View.read_apply]
  show V c main_v21 _ = V c main_v21 _
  refine congrArg (V c main_v21) (funext fun a => Fin.ext ?_)
  match a with
  | ⟨0, _⟩ => show win0_2.index t (0 : Fin 2) * 5000 + 1 * (y 0).val = (i 0).val; rw [e0, h0]; omega
  | ⟨1, _⟩ => show win0_2.index t (1 : Fin 2) * 128 + 1 * (y 1).val = (i 1).val; rw [e1, h1]; omega

/-- The left weight's window is the whole weight at every point. -/
theorem iblk0_3_eq (c : Dev nD) (t : Fin cfg0.N) :
    (iblk0 (F := Ideal) V c 3 t : Vec Ideal S128x128 .bf16) = (V c main_v14 : S128x128.Idx → EReal) := by
  obtain ⟨-, -, -, -, -, -, e0, e1, -⟩ := blockIndex0 t
  funext y
  unfold iblk0
  rw [View.read_apply]
  show V c main_v14 _ = V c main_v14 _
  refine congrArg (V c main_v14) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias's window is the whole bias at every point. -/
theorem iblk0_4_eq (c : Dev nD) (t : Fin cfg0.N) :
    (iblk0 (F := Ideal) V c 4 t : Vec Ideal S128 .f32) = (V c main_arg3 : S128.Idx → EReal) := by
  obtain ⟨-, -, -, -, -, -, -, -, e0, -⟩ := blockIndex0 t
  funext y
  unfold iblk0
  rw [View.read_apply]
  show V c main_arg3 _ = V c main_arg3 _
  refine congrArg (V c main_arg3) (funext fun a => Fin.ext ?_)
  match a with
  | ⟨0, _⟩ => show win0_4.index t (0 : Fin 1) * 128 + 1 * (y 0).val = (y 0).val; rw [e0]; omega

/-- The right weight's window is the whole weight at every point. -/
theorem iblk0_5_eq (c : Dev nD) (t : Fin cfg0.N) :
    (iblk0 (F := Ideal) V c 5 t : Vec Ideal S128x128 .bf16) = (V c main_v16 : S128x128.Idx → EReal) := by
  obtain ⟨-, -, -, -, -, -, -, -, -, e0, e1, -⟩ := blockIndex0 t
  funext y
  unfold iblk0
  rw [View.read_apply]
  show V c main_v16 _ = V c main_v16 _
  refine congrArg (V c main_v16) (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- The layer of the arrays the launch finds. -/
abbrev layer0 (c : Dev nD) : S100000x128.Idx → EReal :=
  Cert.Sage.layerK (V c main_v32) (V c main_v12) (V c main_v21) (V c main_v14) (V c main_arg3) (V c main_v16)

/-- What point t writes back is block t of the layer of the arrays. -/
theorem flushed0_eq (c : Dev nD) (t : Fin cfg0.N) :
    (dat0 (F := Ideal) V c).flushed 6 t = ((cfg0.win 6).blk t).view.read (Elt Ideal) (layer0 V c) := by
  show (cfg0.win 6).cut (grid0.coords t) ((dat0 V c).after 6 t) = _
  rw [after0_6]
  unfold out0_6
  rw [View.canon_unit_zero zeros2]
  simp only [View.ld_unit_zero (S := S5000x128) zeros2, View.ld_unit_zero (S := S5000x1) zeros2,
    View.ld_unit_zero (S := S128x128) zeros2, View.ld_unit_zero (S := S128) zeros1]
  obtain ⟨-, -, -, -, -, -, -, -, -, -, -, e0, e1⟩ := blockIndex0 t
  funext j
  show k0_pay1 (F := Ideal) (iblk0 V c 0 t) (iblk0 V c 1 t) (iblk0 V c 2 t) (iblk0 V c 3 t) (iblk0 V c 5 t) (iblk0 V c 4 t) j
    = layer0 V c (((cfg0.win 6).blk t).view.emb j)
  exact layer_rows
    (k0_pay1 (F := Ideal) (iblk0 V c 0 t) (iblk0 V c 1 t) (iblk0 V c 2 t) (iblk0 V c 3 t) (iblk0 V c 5 t) (iblk0 V c 4 t))
    (iblk0 V c 0 t) (iblk0 V c 1 t) (iblk0 V c 2 t) (iblk0 V c 3 t) (iblk0 V c 4 t) (iblk0 V c 5 t)
    (fun p q => k0_pay1_apply (iblk0 V c 0 t) (iblk0 V c 1 t) (iblk0 V c 2 t) (iblk0 V c 3 t) (iblk0 V c 4 t) (iblk0 V c 5 t) p q)
    (V c main_v32) (V c main_v12) (V c main_v21) (V c main_v14) (V c main_arg3) (V c main_v16) t.val
    (fun y i a b => iblk0_0_apply V c t y i a b) (fun y i a b => iblk0_1_apply V c t y i a b)
    (fun y i a b => iblk0_2_apply V c t y i a b) (iblk0_3_eq V c t) (iblk0_4_eq V c t) (iblk0_5_eq V c t)
    j (((cfg0.win 6).blk t).view.emb j)
    (by show win0_6.index t (0 : Fin 2) * 5000 + 1 * (j 0).val = t.val * 5000 + (j 0).val; rw [e0]; omega)
    (by show win0_6.index t (1 : Fin 2) * 128 + 1 * (j 1).val = (j 1).val; rw [e1]; omega)

/-- An index of the result array is in point t's block iff each coordinate is in the block's range on its axis. -/
theorem mem_blk0 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v33).slice (win0_6.rect t)).set ↔ _
  rw [View.set_slice_whole, Rect.mem_set_unit]
  exact Iff.rfl

/-- Every row of the result is written back: row r by the point r / 5000. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have ht : (i 0).val / 5000 < cfg0.N := by show (i 0).val / 5000 < grid0.N; rw [N_0]; omega
  obtain ⟨-, -, -, -, -, -, -, -, -, -, -, e0, e1⟩ := blockIndex0 ⟨(i 0).val / 5000, ht⟩
  refine ⟨⟨(i 0).val / 5000, ht⟩, flush0_6 _, ?_⟩
  rw [mem_blk0]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    rw [e1]
    omega

/-- The result array after the launch is the layer of the arrays the launch found. -/
theorem final0 (c : Dev nD) :
    (Cert.KernelIdeal.Gen.dat0 (F := Ideal) V c).arrAt 6 cfg0.N
      = Cert.Sage.layerK (V c main_v32) (V c main_v12) (V c main_v21) (V c main_v14) (V c main_arg3) (V c main_v16) :=
  (dat0 (F := Ideal) V c).arrAt_eq_of_cover 6 (layer0 V c) (fun t _ => flushed0_eq V c t) cover0

end Cert.KernelIdeal.RegionValue

end
-- ==== Proof.Region1.lean ====
/-
  The second layer launch: the array its result window leaves is the layer of the arrays the launch finds.

  The launch has the first one's text: it walks 20 grid points.  At point t the windows of the neighbour sums, the reciprocal degrees, the node
  features and the result hold rows 5000·t … 5000·t + 4999 of their arrays; the two weights and the bias are whole at
  every point.  The body leaves in the result's block the layer's entries of those rows, so point t writes back the
  rows 5000·t … of the layer of the whole arrays, and the 20 blocks cover the 100000 rows: row r lies in the block
  of point r / 5000.
-/
import proofs.«132477_j85744727097864_2_alg».proof.Proof.Gen.KernelIdeal.Frame
import proofs.«132477_j85744727097864_2_alg».proof.Proof.LayerBody
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Where each window's block sits at point t: the row-blocked windows at block row t, the whole ones at zero. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The block of the neighbour sums at point t, entry by entry. -/
theorem iblk1_0_apply (c : Dev nD) (t : Fin cfg1.N) (y : S5000x128.Idx) (i : S100000x128.Idx)
    (h0 : (i 0).val = t.val * 5000 + (y 0).val) (h1 : (i 1).val = (y 1).val) :
    (iblk1 (F := Ideal) V c 0 t : Vec Ideal S5000x128 .f32) y = (V c main_v44 : S100000x128.Idx → EReal) i := by
  obtain ⟨e0, e1, -⟩ := blockIndex1 t
  unfold iblk1
  rw [View.read_apply]
  show V c main_v44 _ = V c main_v44 _
  refine congrArg (V c main_v44) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The block of the reciprocal degrees at point t. -/
theorem iblk1_1_apply (c : Dev nD) (t : Fin cfg1.N) (y : S5000x1.Idx) (i : S100000x1.Idx)
    (h0 : (i 0).val = t.val * 5000 + (y 0).val) (h1 : (i 1).val = (y 1).val) :
    (iblk1 (F := Ideal) V c 1 t : Vec Ideal S5000x1 .f32) y = (V c main_v12 : S100000x1.Idx → EReal) i := by
  obtain ⟨-, -, e0, e1, -⟩ := blockIndex1 t
  unfold iblk1
  rw [View.read_apply]
  show V c main_v12 _ = V c main_v12 _
  refine congrArg (V c main_v12) (funext fun a => Fin.ext ?_)
  match a with
  | ⟨0, _⟩ => show win1_1.index t (0 : Fin 2) * 5000 + 1 * (y 0).val = (i 0).val; rw [e0, h0]; omega
  | ⟨1, _⟩ => show win1_1.index t (1 : Fin 2) * 1 + 1 * (y 1).val = (i 1).val; rw [e1, h1]; omega

/-- The block of the node features at point t. -/
theorem iblk1_2_apply (c : Dev nD) (t : Fin cfg1.N) (y : S5000x128.Idx) (i : S100000x128.Idx)
    (h0 : (i 0).val = t.val * 5000 + (y 0).val) (h1 : (i 1).val = (y 1).val) :
    (iblk1 (F := Ideal) V c 2 t : Vec Ideal S5000x128 .bf16) y = (V c main_v33 : S100000x128.Idx → EReal) i := by
  obtain ⟨-, -, -, -, e0, e1, -⟩ := blockIndex1 t
  unfold iblk1
  rw [View.read_apply]
  show V c main_v33 _ = V c main_v33 _
  refine congrArg (V c main_v33) (funext fun a => Fin.ext ?_)
  match a with
  | ⟨0, _⟩ => show win1_2.index t (0 : Fin 2) * 5000 + 1 * (y 0).val = (i 0).val; rw [e0, h0]; omega
  | ⟨1, _⟩ => show win1_2.index t (1 : Fin 2) * 128 + 1 * (y 1).val = (i 1).val; rw [e1, h1]; omega

/-- The left weight's window is the whole weight at every point. -/
theorem iblk1_3_eq (c : Dev nD) (t : Fin cfg1.N) :
    (iblk1 (F := Ideal) V c 3 t : Vec Ideal S128x128 .bf16) = (V c main_v18 : S128x128.Idx → EReal) := by
  obtain ⟨-, -, -, -, -, -, e0, e1, -⟩ := blockIndex1 t
  funext y
  unfold iblk1
  rw [View.read_apply]
  show V c main_v18 _ = V c main_v18 _
  refine congrArg (V c main_v18) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias's window is the whole bias at every point. -/
theorem iblk1_4_eq (c : Dev nD) (t : Fin cfg1.N) :
    (iblk1 (F := Ideal) V c 4 t : Vec Ideal S128 .f32) = (V c main_arg6 : S128.Idx → EReal) := by
  obtain ⟨-, -, -, -, -, -, -, -, e0, -⟩ := blockIndex1 t
  funext y
  unfold iblk1
  rw [View.read_apply]
  show V c main_arg6 _ = V c main_arg6 _
  refine congrArg (V c main_arg6) (funext fun a => Fin.ext ?_)
  match a with
  | ⟨0, _⟩ => show win1_4.index t (0 : Fin 1) * 128 + 1 * (y 0).val = (y 0).val; rw [e0]; omega

/-- The right weight's window is the whole weight at every point. -/
theorem iblk1_5_eq (c : Dev nD) (t : Fin cfg1.N) :
    (iblk1 (F := Ideal) V c 5 t : Vec Ideal S128x128 .bf16) = (V c main_v20 : S128x128.Idx → EReal) := by
  obtain ⟨-, -, -, -, -, -, -, -, -, e0, e1, -⟩ := blockIndex1 t
  funext y
  unfold iblk1
  rw [View.read_apply]
  show V c main_v20 _ = V c main_v20 _
  refine congrArg (V c main_v20) (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- The layer of the arrays the launch finds. -/
abbrev layer1 (c : Dev nD) : S100000x128.Idx → EReal :=
  Cert.Sage.layerK (V c main_v44) (V c main_v12) (V c main_v33) (V c main_v18) (V c main_arg6) (V c main_v20)

/-- What point t writes back is block t of the layer of the arrays. -/
theorem flushed1_eq (c : Dev nD) (t : Fin cfg1.N) :
    (dat1 (F := Ideal) V c).flushed 6 t = ((cfg1.win 6).blk t).view.read (Elt Ideal) (layer1 V c) := by
  show (cfg1.win 6).cut (grid1.coords t) ((dat1 V c).after 6 t) = _
  rw [after1_6]
  unfold out1_6
  rw [View.canon_unit_zero zeros2]
  simp only [View.ld_unit_zero (S := S5000x128) zeros2, View.ld_unit_zero (S := S5000x1) zeros2,
    View.ld_unit_zero (S := S128x128) zeros2, View.ld_unit_zero (S := S128) zeros1]
  obtain ⟨-, -, -, -, -, -, -, -, -, -, -, e0, e1⟩ := blockIndex1 t
  funext j
  show k1_pay1 (F := Ideal) (iblk1 V c 0 t) (iblk1 V c 1 t) (iblk1 V c 2 t) (iblk1 V c 3 t) (iblk1 V c 5 t) (iblk1 V c 4 t) j
    = layer1 V c (((cfg1.win 6).blk t).view.emb j)
  exact layer_rows
    (k1_pay1 (F := Ideal) (iblk1 V c 0 t) (iblk1 V c 1 t) (iblk1 V c 2 t) (iblk1 V c 3 t) (iblk1 V c 5 t) (iblk1 V c 4 t))
    (iblk1 V c 0 t) (iblk1 V c 1 t) (iblk1 V c 2 t) (iblk1 V c 3 t) (iblk1 V c 4 t) (iblk1 V c 5 t)
    (fun p q => k1_pay1_apply (iblk1 V c 0 t) (iblk1 V c 1 t) (iblk1 V c 2 t) (iblk1 V c 3 t) (iblk1 V c 4 t) (iblk1 V c 5 t) p q)
    (V c main_v44) (V c main_v12) (V c main_v33) (V c main_v18) (V c main_arg6) (V c main_v20) t.val
    (fun y i a b => iblk1_0_apply V c t y i a b) (fun y i a b => iblk1_1_apply V c t y i a b)
    (fun y i a b => iblk1_2_apply V c t y i a b) (iblk1_3_eq V c t) (iblk1_4_eq V c t) (iblk1_5_eq V c t)
    j (((cfg1.win 6).blk t).view.emb j)
    (by show win1_6.index t (0 : Fin 2) * 5000 + 1 * (j 0).val = t.val * 5000 + (j 0).val; rw [e0]; omega)
    (by show win1_6.index t (1 : Fin 2) * 128 + 1 * (j 1).val = (j 1).val; rw [e1]; omega)

/-- An index of the result array is in point t's block iff each coordinate is in the block's range on its axis. -/
theorem mem_blk1 (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v45).slice (win1_6.rect t)).set ↔ _
  rw [View.set_slice_whole, Rect.mem_set_unit]
  exact Iff.rfl

/-- Every row of the result is written back: row r by the point r / 5000. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have ht : (i 0).val / 5000 < cfg1.N := by show (i 0).val / 5000 < grid1.N; rw [N_1]; omega
  obtain ⟨-, -, -, -, -, -, -, -, -, -, -, e0, e1⟩ := blockIndex1 ⟨(i 0).val / 5000, ht⟩
  refine ⟨⟨(i 0).val / 5000, ht⟩, flush1_6 _, ?_⟩
  rw [mem_blk1]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_6.index ⟨(i 0).val / 5000, ht⟩ (1 : Fin 2) * 128 ≤ (i 1).val
      ∧ (i 1).val < win1_6.index ⟨(i 0).val / 5000, ht⟩ (1 : Fin 2) * 128 + 128
    rw [e1]
    omega

/-- The result array after the launch is the layer of the arrays the launch found. -/
theorem final1 (c : Dev nD) :
    (Cert.KernelIdeal.Gen.dat1 (F := Ideal) V c).arrAt 6 cfg1.N
      = Cert.Sage.layerK (V c main_v44) (V c main_v12) (V c main_v33) (V c main_v18) (V c main_arg6) (V c main_v20) :=
  (dat1 (F := Ideal) V c).arrAt_eq_of_cover 6 (layer1 V c) (fun t _ => flushed1_eq V c t) cover1

end Cert.KernelIdeal.RegionValue

end
-- ==== Proof.EdgeBody.lean ====
/-
  The edge scorer's block arithmetic, read at an entry, on the extended reals.

  On a block of 8000 edges the body forms the hidden layer
      H = max( hs · W1 + hd · W2 + b1 , 0 )            (8000 × 128)
  from two products into zero accumulators and a bias row repeated down the rows, then the score column
      logistic( H · w + b2 )                           (8000 × 1)
  from a third product and a one-entry bias repeated down the rows.  Rounding to a narrower float format is the
  identity on the extended reals, a cast to the same shape is the identity, and the word of +0.0 is 0.  Entry
  (e, 0) of the result is therefore the score of edge e as the specification spells it.
-/
import proofs.«132477_j85744727097864_2_alg».proof.Proof.Spec
import proofs.«132477_j85744727097864_2_alg».proof.Proof.LibLayout
import proofs.«132477_j85744727097864_2_alg».proof.Proof.Gen.KernelIdeal.Skeleton

set_option maxRecDepth 16384

noncomputable section

namespace Cert.KernelIdeal.RegionValue

open Idealize.ShloMosaic Idealize.ShloMosaic.ValueIdx
open Cert.KernelIdeal Cert.KernelIdeal.Gen

/-! ## The two dimension records: rows against columns, one contracted axis of extent 128 -/

theorem dotH_lhs0 (j : S8000x128.Idx) (k : dot_S8000x128_S128x128_S8000x128_1_0_0_1_n_n.contr.Idx) :
    (dot_S8000x128_S128x128_S8000x128_1_0_0_1_n_n.lhsIdx j k 0).val = (j 0).val := by
  unfold DotDims.lhsIdx
  rw [dif_neg (show ¬(0 : Fin S8000x128.rank) ∈ dot_S8000x128_S128x128_S8000x128_1_0_0_1_n_n.lhsBatch by decide),
    dif_pos (show (0 : Fin S8000x128.rank) ∈ dot_S8000x128_S128x128_S8000x128_1_0_0_1_n_n.lhsNonContracting by decide)]
  rfl

theorem dotH_rhs1 (j : S8000x128.Idx) (k : dot_S8000x128_S128x128_S8000x128_1_0_0_1_n_n.contr.Idx) :
    (dot_S8000x128_S128x128_S8000x128_1_0_0_1_n_n.rhsIdx j k 1).val = (j 1).val := by
  unfold DotDims.rhsIdx
  rw [dif_neg (show ¬(1 : Fin S128x128.rank) ∈ dot_S8000x128_S128x128_S8000x128_1_0_0_1_n_n.rhsBatch by decide),
    dif_pos (show (1 : Fin S128x128.rank) ∈ dot_S8000x128_S128x128_S8000x128_1_0_0_1_n_n.rhsNonContracting by decide)]
  rfl

theorem dotS_lhs0 (j : S8000x1.Idx) (k : dot_S8000x128_S128x1_S8000x1_1_0_0_1_n_n.contr.Idx) :
    (dot_S8000x128_S128x1_S8000x1_1_0_0_1_n_n.lhsIdx j k 0).val = (j 0).val := by
  unfold DotDims.lhsIdx
  rw [dif_neg (show ¬(0 : Fin S8000x128.rank) ∈ dot_S8000x128_S128x1_S8000x1_1_0_0_1_n_n.lhsBatch by decide),
    dif_pos (show (0 : Fin S8000x128.rank) ∈ dot_S8000x128_S128x1_S8000x1_1_0_0_1_n_n.lhsNonContracting by decide)]
  rfl

theorem dotS_rhs1 (j : S8000x1.Idx) (k : dot_S8000x128_S128x1_S8000x1_1_0_0_1_n_n.contr.Idx) :
    (dot_S8000x128_S128x1_S8000x1_1_0_0_1_n_n.rhsIdx j k 1).val = (j 1).val := by
  unfold DotDims.rhsIdx
  rw [dif_neg (show ¬(1 : Fin S128x1.rank) ∈ dot_S8000x128_S128x1_S8000x1_1_0_0_1_n_n.rhsBatch by decide),
    dif_pos (show (1 : Fin S128x1.rank) ∈ dot_S8000x128_S128x1_S8000x1_1_0_0_1_n_n.rhsNonContracting by decide)]
  rfl

/-! ## The hidden layer of a block -/

/-- The hidden layer as the body spells it: two products into zero accumulators, their sum, the bias row repeated
    down the rows, the maximum with zero, the rounding to the narrower format. -/
def hiddenBlock (x0 x1 : Vec Ideal S8000x128 .bf16) (x2 x3 : Vec Ideal S128x128 .bf16) (x4 : Vec Ideal S128 .f32) :
    FVec Ideal S8000x128 .bf16 :=
  truncf .bf16
    (maximumf
      (addf
        (addf
          (matmul (φ₁ := .bf16) (φ₂ := .bf16) dot_S8000x128_S128x128_S8000x128_1_0_0_1_n_n none
            (shapeCast S8000x128 x0 shapeCasts_S8000x128_S8000x128) (shapeCast S128x128 x2 shapeCasts_S128x128_S128x128)
            (constant (F := Ideal) S8000x128 .f32 0x00000000#32))
          (matmul (φ₁ := .bf16) (φ₂ := .bf16) dot_S8000x128_S128x128_S8000x128_1_0_0_1_n_n none
            (shapeCast S8000x128 x1 shapeCasts_S8000x128_S8000x128) (shapeCast S128x128 x3 shapeCasts_S128x128_S128x128)
            (constant (F := Ideal) S8000x128 .f32 0x00000000#32)))
        (broadcastTo S8000x128 (shapeCast S1x128 x4 shapeCasts_S128_S1x128) broadcasts_S1x128_S8000x128))
      (broadcast S8000x128 (Scalar.ofBits (F := Ideal) .f32 0x00000000#32)))
    bitsLt_bf16_f32

/-- Entry (e, i) of the hidden layer: the two contractions, the bias of unit i, clamped below at zero. -/
theorem hiddenBlock_apply (x0 x1 : Vec Ideal S8000x128 .bf16) (x2 x3 : Vec Ideal S128x128 .bf16) (x4 : Vec Ideal S128 .f32)
    (e : Fin 8000) (i : Fin 128) :
    hiddenBlock x0 x1 x2 x3 x4 (ix2 e i)
      = max (((∑ k : Fin 128, x0 (ix2 e k) * x2 (ix2 k i)) + ∑ k : Fin 128, x1 (ix2 e k) * x3 (ix2 k i)) + x4 (ix1 i)) 0 := by
  unfold hiddenBlock
  refine (truncf_apply (φ := .f32) (ψ := .bf16) _ bitsLt_bf16_f32 _).trans ?_
  refine (maximumf_apply (φ := .f32) _ _ _).trans ?_
  refine congrArg₂ max ?_ ?_
  · refine (addf_apply (φ := .f32) _ _ _).trans ?_
    refine congrArg₂ (· + ·) ?_ ?_
    · refine (addf_apply (φ := .f32) _ _ _).trans ?_
      refine congrArg₂ (· + ·) ?_ ?_
      · rw [shapeCast_self, shapeCast_self]
        exact Cert.LibLayout.matmul_rows_cols_apply (φ₁ := .bf16) (φ₂ := .bf16) dot_S8000x128_S128x128_S8000x128_1_0_0_1_n_n rfl rfl rfl rfl
          dotH_lhs0 dotH_rhs1 none x0 x2 e i
      · rw [shapeCast_self, shapeCast_self]
        exact Cert.LibLayout.matmul_rows_cols_apply (φ₁ := .bf16) (φ₂ := .bf16) dot_S8000x128_S128x128_S8000x128_1_0_0_1_n_n rfl rfl rfl rfl
          dotH_lhs0 dotH_rhs1 none x1 x3 e i
    · exact Cert.LibLayout.rowBias_apply x4 shapeCasts_S128_S1x128 broadcasts_S1x128_S8000x128 e i
  · exact Cert.Sage.ofBits_zero

/-! ## The score column of a block -/

/-- The body's payload is the logistic of the hidden layer's product with the second weight plus the second bias. -/
theorem k2_pay1_eq (x0 x1 : Vec Ideal S8000x128 .bf16) (x2 x3 : Vec Ideal S128x128 .bf16) (x4 : Vec Ideal S128 .f32)
    (x5 : Vec Ideal S128x1 .bf16) (x6 : Vec Ideal S1 .f32) :
    k2_pay1 (F := Ideal) x0 x1 x2 x3 x4 x5 x6
      = logistic
          (addf
            (matmul (φ₁ := .bf16) (φ₂ := .bf16) dot_S8000x128_S128x1_S8000x1_1_0_0_1_n_n none (hiddenBlock x0 x1 x2 x3 x4)
              (shapeCast S128x1 x5 shapeCasts_S128x1_S128x1) (constant (F := Ideal) S8000x1 .f32 0x00000000#32))
            (broadcastTo S8000x1 (shapeCast S1x1 x6 shapeCasts_S1_S1x1) broadcasts_S1x1_S8000x1)) := rfl

/-- Entry (e, 0) of the body's payload is the score of edge e. -/
theorem k2_pay1_apply (x0 x1 : Vec Ideal S8000x128 .bf16) (x2 x3 : Vec Ideal S128x128 .bf16) (x4 : Vec Ideal S128 .f32)
    (x5 : Vec Ideal S128x1 .bf16) (x6 : Vec Ideal S1 .f32) (e : Fin 8000) (z : Fin 1) :
    k2_pay1 (F := Ideal) x0 x1 x2 x3 x4 x5 x6 (ix2 e z) = Cert.Sage.edgeKAt x0 x1 x2 x3 x4 x5 x6 e := by
  obtain rfl : z = 0 := Subsingleton.elim _ _
  rw [k2_pay1_eq]
  unfold Cert.Sage.edgeKAt
  refine congrArg Ideal.logistic ?_
  refine (addf_apply (φ := .f32) _ _ _).trans ?_
  refine congrArg₂ (· + ·) ?_ ?_
  · rw [shapeCast_self]
    refine (Cert.LibLayout.matmul_rows_cols_apply (φ₁ := .bf16) (φ₂ := .bf16) dot_S8000x128_S128x1_S8000x1_1_0_0_1_n_n rfl rfl rfl rfl
      dotS_lhs0 dotS_rhs1 none (hiddenBlock x0 x1 x2 x3 x4) x5 e 0).trans ?_
    refine Finset.sum_congr rfl fun i _ => ?_
    rw [hiddenBlock_apply]
  · exact Cert.LibLayout.rowBias_apply x6 shapeCasts_S1_S1x1 broadcasts_S1x1_S8000x1 e 0

end Cert.KernelIdeal.RegionValue

end
-- ==== Proof.Region2.lean ====
/-
  The edge scorer's region: its output array after the region, as one function of the arrays the region finds.

  The grid has 100 points; point t reads rows 8000·t … 8000·t + 7999 of the two end-point feature arrays, the whole
  of the five weight and bias arrays, and writes rows 8000·t … 8000·t + 7999 of the score column.  What point t
  writes back is the score of each of its rows (the body's arithmetic read at an entry), the 100 blocks tile the
  800000 rows (row r lies in block r / 8000), so the array ends holding the score of every edge.
-/
import proofs.«132477_j85744727097864_2_alg».proof.Proof.EdgeBody
import proofs.«132477_j85744727097864_2_alg».proof.Proof.Gen.KernelIdeal.Frame
import Idealize.ShloMosaic.Lib.Pipeline.Value
import Idealize.ShloMosaic.Lib.Tactic

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem edge_hz2 : (![0, 0] : Fin 2 → Nat) = fun _ => 0 := funext fun a => by fin_cases a <;> rfl
theorem edge_hz1 : (![0] : Fin 1 → Nat) = fun _ => 0 := funext fun a => by fin_cases a <;> rfl

/-! ## The score depends on its operands only through the entries it reads -/

theorem edgeKAt_congr {R R' : Nat} (hs hd : Cert.Sage.Mat R 128) (hs' hd' : Cert.Sage.Mat R' 128)
    (W1 W2 W1' W2' : Cert.Sage.Mat 128 128) (b1 b1' : Cert.Sage.Vct 128) (w w' : Cert.Sage.Mat 128 1)
    (b2 b2' : Cert.Sage.Vct 1) (e : Fin R) (e' : Fin R')
    (h0 : ∀ k : Fin 128, hs (ix2 e k) = hs' (ix2 e' k)) (h1 : ∀ k : Fin 128, hd (ix2 e k) = hd' (ix2 e' k))
    (h2 : ∀ k i : Fin 128, W1 (ix2 k i) = W1' (ix2 k i)) (h3 : ∀ k i : Fin 128, W2 (ix2 k i) = W2' (ix2 k i))
    (h4 : ∀ i : Fin 128, b1 (ix1 i) = b1' (ix1 i)) (h5 : ∀ i : Fin 128, w (ix2 i 0) = w' (ix2 i 0))
    (h6 : b2 (ix1 0) = b2' (ix1 0)) :
    Cert.Sage.edgeKAt hs hd W1 W2 b1 w b2 e = Cert.Sage.edgeKAt hs' hd' W1' W2' b1' w' b2' e' := by
  simp only [Cert.Sage.edgeKAt, h0, h1, h2, h3, h4, h5, h6]

/-! ## The printed index maps, decided over the grid -/

/-- Windows 0, 1 and 7 sit at block t along the rows; windows 2 … 6 are whole and fixed. -/
theorem edge_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-! ## Each input block, as entries of its array -/

/-- The source rows' block at point t is rows 8000·t … of the array. -/
theorem edge_iblk0_apply (c : Dev nD) (t : Fin cfg2.N) (x : S8000x128.Idx) (k : S800000x128.Idx)
    (hk0 : (k 0).val = t.val * 8000 + (x 0).val) (hk1 : (k 1).val = (x 1).val) :
    (iblk2 (F := Ideal) V c 0 t : Vec Ideal S8000x128 .bf16) x = (V c main_v52 : S800000x128.Idx → Elt Ideal .bf16) k := by
  obtain ⟨e0, e1, -⟩ := edge_idx_facts t
  unfold iblk2
  rw [View.read_apply]
  show V c main_v52 _ = V c main_v52 _
  congr 1
  funext a
  apply Fin.ext
  match a with
  | ⟨0, _⟩ => show win2_0.index t (0 : Fin 2) * 8000 + 1 * (x 0).val = (k 0).val; rw [e0, hk0]; omega
  | ⟨1, _⟩ => show win2_0.index t (1 : Fin 2) * 128 + 1 * (x 1).val = (k 1).val; rw [e1, hk1]; omega

/-- The destination rows' block at point t is rows 8000·t … of the array. -/
theorem edge_iblk1_apply (c : Dev nD) (t : Fin cfg2.N) (x : S8000x128.Idx) (k : S800000x128.Idx)
    (hk0 : (k 0).val = t.val * 8000 + (x 0).val) (hk1 : (k 1).val = (x 1).val) :
    (iblk2 (F := Ideal) V c 1 t : Vec Ideal S8000x128 .bf16) x = (V c main_v59 : S800000x128.Idx → Elt Ideal .bf16) k := by
  obtain ⟨-, -, e0, e1, -⟩ := edge_idx_facts t
  unfold iblk2
  rw [View.read_apply]
  show V c main_v59 _ = V c main_v59 _
  congr 1
  funext a
  apply Fin.ext
  match a with
  | ⟨0, _⟩ => show win2_1.index t (0 : Fin 2) * 8000 + 1 * (x 0).val = (k 0).val; rw [e0, hk0]; omega
  | ⟨1, _⟩ => show win2_1.index t (1 : Fin 2) * 128 + 1 * (x 1).val = (k 1).val; rw [e1, hk1]; omega

/-- The five whole windows read their arrays entry for entry. -/
theorem edge_iblk2_apply (c : Dev nD) (t : Fin cfg2.N) (x : S128x128.Idx) :
    (iblk2 (F := Ideal) V c 2 t : Vec Ideal S128x128 .bf16) x = (V c main_v62 : S128x128.Idx → Elt Ideal .bf16) x := by
  obtain ⟨-, -, -, -, e0, e1, -⟩ := edge_idx_facts t
  unfold iblk2
  rw [View.read_apply]
  show V c main_v62 _ = V c main_v62 _
  congr 1
  funext a
  apply Fin.ext
  match a with
  | ⟨0, _⟩ => show win2_2.index t (0 : Fin 2) * 128 + 1 * (x 0).val = (x 0).val; rw [e0]; omega
  | ⟨1, _⟩ => show win2_2.index t (1 : Fin 2) * 128 + 1 * (x 1).val = (x 1).val; rw [e1]; omega

theorem edge_iblk3_apply (c : Dev nD) (t : Fin cfg2.N) (x : S128x128.Idx) :
    (iblk2 (F := Ideal) V c 3 t : Vec Ideal S128x128 .bf16) x = (V c main_v65 : S128x128.Idx → Elt Ideal .bf16) x := by
  obtain ⟨-, -, -, -, -, -, e0, e1, -⟩ := edge_idx_facts t
  unfold iblk2
  rw [View.read_apply]
  show V c main_v65 _ = V c main_v65 _
  congr 1
  funext a
  apply Fin.ext
  match a with
  | ⟨0, _⟩ => show win2_3.index t (0 : Fin 2) * 128 + 1 * (x 0).val = (x 0).val; rw [e0]; omega
  | ⟨1, _⟩ => show win2_3.index t (1 : Fin 2) * 128 + 1 * (x 1).val = (x 1).val; rw [e1]; omega

theorem edge_iblk4_apply (c : Dev nD) (t : Fin cfg2.N) (x : S128.Idx) :
    (iblk2 (F := Ideal) V c 4 t : Vec Ideal S128 .f32) x = (V c main_arg9 : S128.Idx → Elt Ideal .f32) x := by
  obtain ⟨-, -, -, -, -, -, -, -, e0, -⟩ := edge_idx_facts t
  unfold iblk2
  rw [View.read_apply]
  show V c main_arg9 _ = V c main_arg9 _
  congr 1
  funext a
  apply Fin.ext
  match a with
  | ⟨0, _⟩ => show win2_4.index t (0 : Fin 1) * 128 + 1 * (x 0).val = (x 0).val; rw [e0]; omega

theorem edge_iblk5_apply (c : Dev nD) (t : Fin cfg2.N) (x : S128x1.Idx) :
    (iblk2 (F := Ideal) V c 5 t : Vec Ideal S128x1 .bf16) x = (V c main_v67 : S128x1.Idx → Elt Ideal .bf16) x := by
  obtain ⟨-, -, -, -, -, -, -, -, -, e0, e1, -⟩ := edge_idx_facts t
  unfold iblk2
  rw [View.read_apply]
  show V c main_v67 _ = V c main_v67 _
  congr 1
  funext a
  apply Fin.ext
  match a with
  | ⟨0, _⟩ => show win2_5.index t (0 : Fin 2) * 128 + 1 * (x 0).val = (x 0).val; rw [e0]; omega
  | ⟨1, _⟩ => show win2_5.index t (1 : Fin 2) * 1 + 1 * (x 1).val = (x 1).val; rw [e1]; omega

theorem edge_iblk6_apply (c : Dev nD) (t : Fin cfg2.N) (x : S1.Idx) :
    (iblk2 (F := Ideal) V c 6 t : Vec Ideal S1 .f32) x = (V c main_arg11 : S1.Idx → Elt Ideal .f32) x := by
  obtain ⟨-, -, -, -, -, -, -, -, -, -, -, e0, -⟩ := edge_idx_facts t
  unfold iblk2
  rw [View.read_apply]
  show V c main_arg11 _ = V c main_arg11 _
  congr 1
  funext a
  apply Fin.ext
  match a with
  | ⟨0, _⟩ => show win2_6.index t (0 : Fin 1) * 1 + 1 * (x 0).val = (x 0).val; rw [e0]; omega

/-! ## What point t writes back -/

/-- The scores of the whole edge list, from the arrays the region finds. -/
abbrev scores (c : Dev nD) : Cert.Sage.Mat 800000 1 :=
  Cert.Sage.edgeK (V c main_v52) (V c main_v59) (V c main_v62) (V c main_v65) (V c main_arg9) (V c main_v67) (V c main_arg11)

/-- Entry j of the body's payload on point t's blocks is the score of the edge that entry sits at in the array. -/
theorem edge_block_score (c : Dev nD) (t : Fin cfg2.N) (j : S8000x1.Idx) (r : S800000x1.Idx)
    (hr : (r 0).val = t.val * 8000 + (j 0).val) :
    k2_pay1 (F := Ideal) (iblk2 V c 0 t) (iblk2 V c 1 t) (iblk2 V c 2 t) (iblk2 V c 3 t) (iblk2 V c 4 t) (iblk2 V c 5 t)
        (iblk2 V c 6 t) j = scores V c r := by
  obtain ⟨e, z, rfl⟩ : ∃ (e : Fin 8000) (z : Fin 1), j = ix2 e z := ⟨j 0, j 1, eq_ix2 j⟩
  refine (k2_pay1_apply (iblk2 V c 0 t) (iblk2 V c 1 t) (iblk2 V c 2 t) (iblk2 V c 3 t) (iblk2 V c 4 t) (iblk2 V c 5 t)
    (iblk2 V c 6 t) e z).trans ?_
  show _ = Cert.Sage.edgeKAt (V c main_v52) (V c main_v59) (V c main_v62) (V c main_v65) (V c main_arg9) (V c main_v67)
    (V c main_arg11) (r 0)
  refine edgeKAt_congr _ _ _ _ _ _ _ _ _ _ _ _ _ _ e (r 0) ?_ ?_ ?_ ?_ ?_ ?_ ?_
  · intro k; exact edge_iblk0_apply V c t (ix2 e k) (ix2 (r 0) k) hr rfl
  · intro k; exact edge_iblk1_apply V c t (ix2 e k) (ix2 (r 0) k) hr rfl
  · intro k i; exact edge_iblk2_apply V c t (ix2 k i)
  · intro k i; exact edge_iblk3_apply V c t (ix2 k i)
  · intro i; exact edge_iblk4_apply V c t (ix1 i)
  · intro i; exact edge_iblk5_apply V c t (ix2 i 0)
  · exact edge_iblk6_apply V c t (ix1 0)

/-- WHAT POINT t WRITES BACK is block t of the scores. -/
theorem edge_flushed_eq (c : Dev nD) (t : Fin cfg2.N) :
    (dat2 (F := Ideal) V c).flushed 7 t = ((cfg2.win 7).blk t).view.read (Elt Ideal) (scores V c) := by
  show (cfg2.win 7).cut (grid2.coords t) ((dat2 (F := Ideal) V c).after 7 t) = _
  rw [after2_7]
  unfold out2_7
  rw [View.canon_unit_zero edge_hz2]
  simp only [View.ld_unit_zero (S := S8000x128) edge_hz2, View.ld_unit_zero (S := S128x128) edge_hz2,
    View.ld_unit_zero (S := S128) edge_hz1, View.ld_unit_zero (S := S128x1) edge_hz2, View.ld_unit_zero (S := S1) edge_hz1]
  obtain ⟨-, -, -, -, -, -, -, -, -, -, -, -, e0, e1⟩ := edge_idx_facts t
  funext j
  refine edge_block_score V c t j (((cfg2.win 7).blk t).view.emb j) ?_
  show win2_7.index t (0 : Fin 2) * 8000 + 1 * (j 0).val = t.val * 8000 + (j 0).val
  rw [e0]; omega

/-! ## The blocks tile the array -/

/-- An index of the score column is in point t's block iff each coordinate is in the block's range on its axis. -/
theorem edge_mem_blk (t : Fin cfg2.N) (i : S800000x1.Idx) :
    i ∈ ((cfg2.win 7).blk t).view.set ↔ ∀ a : Fin 2, win2_7.index t a * S8000x1.size a ≤ (i a).val ∧ (i a).val < win2_7.index t a * S8000x1.size a + S8000x1.size a := by
  show i ∈ ((View.whole main_v68).slice (win2_7.rect t)).set ↔ _
  rw [View.set_slice_whole, Rect.mem_set_unit]
  exact Iff.rfl

/-- Row r of the score column lies in the block of point r / 8000, which is written back. -/
theorem edge_cover (i : S800000x1.Idx) :
    ∃ t : Fin cfg2.N, (cfg2.win 7).flush t = true ∧ i ∈ ((cfg2.win 7).blk t).view.set := by
  have hi0 : (i 0).val < 800000 := (i 0).isLt
  have hi1 : (i 1).val < 1 := (i 1).isLt
  have hN : grid2.N = 100 := N_2
  have ht : (i 0).val / 8000 < cfg2.N := by show (i 0).val / 8000 < grid2.N; rw [hN]; omega
  refine ⟨⟨(i 0).val / 8000, ht⟩, flush2_7 _, ?_⟩
  rw [edge_mem_blk]
  obtain ⟨-, -, -, -, -, -, -, -, -, -, -, -, e0, e1⟩ := edge_idx_facts ⟨(i 0).val / 8000, ht⟩
  intro a
  match a with
  | ⟨0, _⟩ =>
    show win2_7.index ⟨(i 0).val / 8000, ht⟩ (0 : Fin 2) * 8000 ≤ (i 0).val ∧ (i 0).val < win2_7.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win2_7.index ⟨(i 0).val / 8000, ht⟩ (1 : Fin 2) * 1 ≤ (i 1).val ∧ (i 1).val < win2_7.index ⟨(i 0).val / 8000, ht⟩ (1 : Fin 2) * 1 + 1
    rw [e1]; omega

/-! ## The array after the region -/

/-- THE SCORE COLUMN after the region: the score of every edge, from the arrays the region finds. -/
theorem final2 (c : Dev nD) :
    (dat2 (F := Ideal) V c).arrAt 7 cfg2.N
      = Cert.Sage.edgeK (V c main_v52) (V c main_v59) (V c main_v62) (V c main_v65) (V c main_arg9) (V c main_v67) (V c main_arg11) :=
  (dat2 (F := Ideal) V c).arrAt_eq_of_cover 7 (scores V c) (fun t _ => edge_flushed_eq V c t) edge_cover

end Cert.KernelIdeal.RegionValue

end
-- ==== Proof.HostStretch.lean ====
/-
  The host operations of the tiled program between its launches, read at the buffers a launch or the return uses.

  The edge list is cut into its source row and its destination row; a row of node indices is made non-negative
  (an index below zero counts from the end) and laid out as a one-column matrix to address a gather; the
  destination row as it stands addresses the scatter-adds. From these the program forms the in-degree (ones
  scattered by destination), its clamped reciprocal as a one-column matrix, the neighbour sums of a feature
  matrix (its rows gathered at the sources, then scattered by destination), the end-point rows of every edge, and
  the transposed weights. Each stretch is a straight line of such operations, so what a buffer holds after a
  stretch is a closed term of what the buffers it reads held before it; buffers a stretch does not write are
  left as they were.
-/
import proofs.«132477_j85744727097864_2_alg».proof.Proof.Gen.KernelIdeal.Launch
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]

/-! ## The pieces -/

/-- The source node of every edge: row 0 of the edge list. -/
def src (x1 : (⟨S2x800000, .i32⟩ : BufTy).Contents (Elt F)) : (⟨S800000, .i32⟩ : BufTy).Contents (Elt F) :=
  shapeCast S800000 (extractStridedSlice S1x800000 ![0, 0] x1 slices_S2x800000_S1x800000_0_0) shapeCasts_S1x800000_S800000

/-- The destination node of every edge: row 1 of the edge list. -/
def dst (x1 : (⟨S2x800000, .i32⟩ : BufTy).Contents (Elt F)) : (⟨S800000, .i32⟩ : BufTy).Contents (Elt F) :=
  shapeCast S800000 (extractStridedSlice S1x800000 ![1, 0] x1 slices_S2x800000_S1x800000_1_0) shapeCasts_S1x800000_S800000

/-- A row of node indices as gather addresses: an index below zero moved up by the node count, the row laid out
    as one column. -/
def wrap (v : (⟨S800000, .i32⟩ : BufTy).Contents (Elt F)) : (⟨S800000x1, .i32⟩ : BufTy).Contents (Elt F) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 100000#32))) v)

/-- A row of node indices as scatter addresses: the row laid out as one column. -/
def col (v : (⟨S800000, .i32⟩ : BufTy).Contents (Elt F)) : (⟨S800000x1, .i32⟩ : BufTy).Contents (Elt F) :=
  broadcastInDim S800000x1 ![0] bcast_S800000_S800000x1_0 v

/-- The rows of `X` at the addresses made of `v`. -/
def rowsAt (X : (⟨S100000x128, .bf16⟩ : BufTy).Contents (Elt F)) (v : (⟨S800000, .i32⟩ : BufTy).Contents (Elt F)) : (⟨S800000x128, .bf16⟩ : BufTy).Contents (Elt F) :=
  Host.gather gather_S100000x128_S800000x1_S800000x128_1_0_n_n_0_1_1128 X (wrap v)

/-- The neighbour sums of `X`: its rows at the sources `s`, added into a zero matrix at the destinations `d`. -/
def aggrOf (s d : (⟨S800000, .i32⟩ : BufTy).Contents (Elt F)) (X : (⟨S100000x128, .bf16⟩ : BufTy).Contents (Elt F)) : (⟨S100000x128, .f32⟩ : BufTy).Contents (Elt F) :=
  Host.scatterAdd scatter_S100000x128_S800000x1_S800000x128_1_0_0_1
    (broadcastInDim S100000x128 ![] bcast_S_S100000x128 (constant S_ .f32 0x00000000#32)) (col d)
    (extf .f32 (rowsAt X s) bitsLt_bf16_f32)

/-- The in-degree: a one for every edge, added into a zero vector at the destinations `d`. -/
def degOf (d : (⟨S800000, .i32⟩ : BufTy).Contents (Elt F)) : (⟨S100000, .f32⟩ : BufTy).Contents (Elt F) :=
  Host.scatterAdd scatter_S100000_S800000x1_S800000_n_0_0_1
    (broadcastInDim S100000 ![] bcast_S_S100000 (constant S_ .f32 0x00000000#32)) (col d)
    (broadcastInDim S800000 ![] bcast_S_S800000 (constant S_ .f32 0x3F800000#32))

/-- One over the in-degree clamped below at one, as a one-column matrix. -/
def invOf (d : (⟨S800000, .i32⟩ : BufTy).Contents (Elt F)) : (⟨S100000x1, .f32⟩ : BufTy).Contents (Elt F) :=
  Host.divf (broadcastInDim S100000x1 ![] bcast_S_S100000x1 (constant S_ .f32 0x3F800000#32))
    (maximumf (shapeCast S100000x1 (degOf d) shapeCasts_S100000_S100000x1)
      (broadcastInDim S100000x1 ![] bcast_S_S100000x1 (constant S_ .f32 0x3F800000#32)))

/-- A square weight transposed. -/
def wT (W : (⟨S128x128, .f32⟩ : BufTy).Contents (Elt F)) : (⟨S128x128, .bf16⟩ : BufTy).Contents (Elt F) :=
  truncf .bf16 (transpose S128x128 [1, 0] W transposes_S128x128_S128x128_1_0) bitsLt_bf16_f32

/-- Columns 0 … 127 of the scorer's first weight, transposed. -/
def wLeft (W : (⟨S128x256, .f32⟩ : BufTy).Contents (Elt F)) : (⟨S128x128, .bf16⟩ : BufTy).Contents (Elt F) :=
  truncf .bf16 (transpose S128x128 [1, 0] (extractStridedSlice S128x128 ![0, 0] W slices_S128x256_S128x128_0_0)
    transposes_S128x128_S128x128_1_0) bitsLt_bf16_f32

/-- Columns 128 … 255 of the scorer's first weight, transposed. -/
def wRight (W : (⟨S128x256, .f32⟩ : BufTy).Contents (Elt F)) : (⟨S128x128, .bf16⟩ : BufTy).Contents (Elt F) :=
  truncf .bf16 (transpose S128x128 [1, 0] (extractStridedSlice S128x128 ![0, 128] W slices_S128x256_S128x128_0_128)
    transposes_S128x128_S128x128_1_0) bitsLt_bf16_f32

/-- The scorer's second weight, transposed to a column. -/
def wCol (W : (⟨S1x128, .f32⟩ : BufTy).Contents (Elt F)) : (⟨S128x1, .bf16⟩ : BufTy).Contents (Elt F) :=
  truncf .bf16 (transpose S128x1 [1, 0] W transposes_S1x128_S128x1_1_0) bitsLt_bf16_f32

variable (Vin : Valuation τ sig (Elt F))

/-! ## The stretch before the first launch -/

theorem s0_v1 : StableHlo.after hostOps0 Vin (Proc.devRef .tc main_v1) = src (Vin (Proc.devRef .tc main_arg1)) := by
  after_results_simp <;> rfl
theorem s0_v3 : StableHlo.after hostOps0 Vin (Proc.devRef .tc main_v3) = dst (Vin (Proc.devRef .tc main_arg1)) := by
  after_results_simp <;> rfl
theorem s0_v12 : StableHlo.after hostOps0 Vin (Proc.devRef .tc main_v12) = invOf (dst (Vin (Proc.devRef .tc main_arg1))) := by
  after_results_simp <;> rfl
theorem s0_v14 : StableHlo.after hostOps0 Vin (Proc.devRef .tc main_v14) = wT (Vin (Proc.devRef .tc main_arg2)) := by
  after_results_simp <;> rfl
theorem s0_v16 : StableHlo.after hostOps0 Vin (Proc.devRef .tc main_v16) = wT (Vin (Proc.devRef .tc main_arg4)) := by
  after_results_simp <;> rfl
theorem s0_v18 : StableHlo.after hostOps0 Vin (Proc.devRef .tc main_v18) = wT (Vin (Proc.devRef .tc main_arg5)) := by
  after_results_simp <;> rfl
theorem s0_v20 : StableHlo.after hostOps0 Vin (Proc.devRef .tc main_v20) = wT (Vin (Proc.devRef .tc main_arg7)) := by
  after_results_simp <;> rfl
theorem s0_v21 : StableHlo.after hostOps0 Vin (Proc.devRef .tc main_v21)
    = truncf .bf16 (Vin (Proc.devRef .tc main_arg0)) bitsLt_bf16_f32 := by
  after_results_simp <;> rfl
theorem s0_v32 : StableHlo.after hostOps0 Vin (Proc.devRef .tc main_v32)
    = aggrOf (src (Vin (Proc.devRef .tc main_arg1))) (dst (Vin (Proc.devRef .tc main_arg1)))
        (truncf .bf16 (Vin (Proc.devRef .tc main_arg0)) bitsLt_bf16_f32) := by
  after_results_simp <;> rfl
theorem s0_arg3 : StableHlo.after hostOps0 Vin (Proc.devRef .tc main_arg3) = Vin (Proc.devRef .tc main_arg3) := by
  after_results_simp <;> rfl
theorem s0_arg6 : StableHlo.after hostOps0 Vin (Proc.devRef .tc main_arg6) = Vin (Proc.devRef .tc main_arg6) := by
  after_results_simp <;> rfl
theorem s0_arg8 : StableHlo.after hostOps0 Vin (Proc.devRef .tc main_arg8) = Vin (Proc.devRef .tc main_arg8) := by
  after_results_simp <;> rfl
theorem s0_arg9 : StableHlo.after hostOps0 Vin (Proc.devRef .tc main_arg9) = Vin (Proc.devRef .tc main_arg9) := by
  after_results_simp <;> rfl
theorem s0_arg10 : StableHlo.after hostOps0 Vin (Proc.devRef .tc main_arg10) = Vin (Proc.devRef .tc main_arg10) := by
  after_results_simp <;> rfl
theorem s0_arg11 : StableHlo.after hostOps0 Vin (Proc.devRef .tc main_arg11) = Vin (Proc.devRef .tc main_arg11) := by
  after_results_simp <;> rfl

/-! ## The stretch between the first and the second launch -/

theorem s1_v44 : StableHlo.after hostOps1 Vin (Proc.devRef .tc main_v44)
    = aggrOf (Vin (Proc.devRef .tc main_v1)) (Vin (Proc.devRef .tc main_v3)) (Vin (Proc.devRef .tc main_v33)) := by
  after_results_simp <;> rfl
theorem s1_v1 : StableHlo.after hostOps1 Vin (Proc.devRef .tc main_v1) = Vin (Proc.devRef .tc main_v1) := by
  after_results_simp <;> rfl
theorem s1_v3 : StableHlo.after hostOps1 Vin (Proc.devRef .tc main_v3) = Vin (Proc.devRef .tc main_v3) := by
  after_results_simp <;> rfl
theorem s1_v12 : StableHlo.after hostOps1 Vin (Proc.devRef .tc main_v12) = Vin (Proc.devRef .tc main_v12) := by
  after_results_simp <;> rfl
theorem s1_v18 : StableHlo.after hostOps1 Vin (Proc.devRef .tc main_v18) = Vin (Proc.devRef .tc main_v18) := by
  after_results_simp <;> rfl
theorem s1_v20 : StableHlo.after hostOps1 Vin (Proc.devRef .tc main_v20) = Vin (Proc.devRef .tc main_v20) := by
  after_results_simp <;> rfl
theorem s1_v33 : StableHlo.after hostOps1 Vin (Proc.devRef .tc main_v33) = Vin (Proc.devRef .tc main_v33) := by
  after_results_simp <;> rfl
theorem s1_arg6 : StableHlo.after hostOps1 Vin (Proc.devRef .tc main_arg6) = Vin (Proc.devRef .tc main_arg6) := by
  after_results_simp <;> rfl
theorem s1_arg8 : StableHlo.after hostOps1 Vin (Proc.devRef .tc main_arg8) = Vin (Proc.devRef .tc main_arg8) := by
  after_results_simp <;> rfl
theorem s1_arg9 : StableHlo.after hostOps1 Vin (Proc.devRef .tc main_arg9) = Vin (Proc.devRef .tc main_arg9) := by
  after_results_simp <;> rfl
theorem s1_arg10 : StableHlo.after hostOps1 Vin (Proc.devRef .tc main_arg10) = Vin (Proc.devRef .tc main_arg10) := by
  after_results_simp <;> rfl
theorem s1_arg11 : StableHlo.after hostOps1 Vin (Proc.devRef .tc main_arg11) = Vin (Proc.devRef .tc main_arg11) := by
  after_results_simp <;> rfl

/-! ## The stretch between the second and the third launch -/

theorem s2_v52 : StableHlo.after hostOps2 Vin (Proc.devRef .tc main_v52)
    = rowsAt (Vin (Proc.devRef .tc main_v45)) (Vin (Proc.devRef .tc main_v1)) := by
  after_results_simp <;> rfl
theorem s2_v59 : StableHlo.after hostOps2 Vin (Proc.devRef .tc main_v59)
    = rowsAt (Vin (Proc.devRef .tc main_v45)) (Vin (Proc.devRef .tc main_v3)) := by
  after_results_simp <;> rfl
theorem s2_v62 : StableHlo.after hostOps2 Vin (Proc.devRef .tc main_v62) = wLeft (Vin (Proc.devRef .tc main_arg8)) := by
  after_results_simp <;> rfl
theorem s2_v65 : StableHlo.after hostOps2 Vin (Proc.devRef .tc main_v65) = wRight (Vin (Proc.devRef .tc main_arg8)) := by
  after_results_simp <;> rfl
theorem s2_v67 : StableHlo.after hostOps2 Vin (Proc.devRef .tc main_v67) = wCol (Vin (Proc.devRef .tc main_arg10)) := by
  after_results_simp <;> rfl
theorem s2_arg9 : StableHlo.after hostOps2 Vin (Proc.devRef .tc main_arg9) = Vin (Proc.devRef .tc main_arg9) := by
  after_results_simp <;> rfl
theorem s2_arg11 : StableHlo.after hostOps2 Vin (Proc.devRef .tc main_arg11) = Vin (Proc.devRef .tc main_arg11) := by
  after_results_simp <;> rfl

/-! ## The stretch after the third launch -/

theorem s3_v69 : StableHlo.after hostOps3 Vin (Proc.devRef .tc main_v69)
    = shapeCast S800000 (Vin (Proc.devRef .tc main_v68)) shapeCasts_S800000x1_S800000 := by
  after_results_simp <;> rfl

end Cert.KernelIdeal.HostValue

end
-- ==== Proof.KernelValue.lean ====
/-
  The tiled program's result as one closed term of its arguments.

  Walk the buffer contents from the launch to the return. Before the first launch the host forms the neighbour
  sums of the node features, the reciprocal degrees and the transposed weights; the first launch leaves the first
  layer's output where its result array is and nothing else changed; the host then forms the neighbour sums of
  that output, the second launch leaves the second layer's output, the host gathers its rows at both ends of every
  edge, the third launch scores the edges, and a last reshape drops the unit axis. A buffer that a stretch or a
  launch does not write is read back through it unchanged, so every operand of every launch walks back to a term
  of the arguments. What each launch leaves in its result array — one function of the arrays it finds, by the
  blocks covering the array — enters here as a hypothesis per launch.
-/
import proofs.«132477_j85744727097864_2_alg».proof.Proof.Gen.KernelIdeal.Frame
import proofs.«132477_j85744727097864_2_alg».proof.Proof.HostStretch
import proofs.«132477_j85744727097864_2_alg».proof.Proof.Spec

set_option maxRecDepth 16384

noncomputable section

namespace Cert.KernelIdeal.KernelValue

open Cert.KernelIdeal Cert.KernelIdeal.Gen Cert.KernelIdeal.HostValue
open Idealize.ShloMosaic Idealize.ShloMosaic.TcCoe Idealize.SL.Sem Idealize.ShloMosaic.StableHlo

/-- The arrays a launch finds, as the proof data of a launch take them. -/
abbrev Entry : Type := (c : Dev nD) → (b : Ref sig .tc) → Buf (Elt Ideal) ((c : Thread nD τ).loc b)

/-! ## The network in the tiled program's spelling -/

/-- The node features in the narrower float format: on the extended reals, the same numbers. -/
def narrow (x0 : (⟨S100000x128, .f32⟩ : BufTy).Contents (Elt Ideal)) : (⟨S100000x128, .bf16⟩ : BufTy).Contents (Elt Ideal) :=
  truncf (F := Ideal) (s := S100000x128) (φ := .f32) .bf16 x0 bitsLt_bf16_f32

/-- The first layer's output. -/
def H1 (x0 : (⟨S100000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) : (⟨S100000x128, .bf16⟩ : BufTy).Contents (Elt Ideal) :=
  Cert.Sage.layerK (aggrOf (src x1) (dst x1) (narrow x0)) (invOf (dst x1))
    (narrow x0) (wT x2) x3 (wT x4)

/-- The second layer's output. -/
def H2 (x0 : (⟨S100000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) : (⟨S100000x128, .bf16⟩ : BufTy).Contents (Elt Ideal) :=
  Cert.Sage.layerK (aggrOf (src x1) (dst x1) (H1 x0 x1 x2 x3 x4)) (invOf (dst x1)) (H1 x0 x1 x2 x3 x4) (wT x5) x6 (wT x7)

/-- The scores, the unit axis dropped. -/
def OUT (x0 : (⟨S100000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128x256, .f32⟩ : BufTy).Contents (Elt Ideal))
    (x9 : (⟨S128, .f32⟩ : BufTy).Contents (Elt Ideal)) (x10 : (⟨S1x128, .f32⟩ : BufTy).Contents (Elt Ideal))
    (x11 : (⟨S1, .f32⟩ : BufTy).Contents (Elt Ideal)) : (⟨S800000, .f32⟩ : BufTy).Contents (Elt Ideal) :=
  shapeCast S800000
    (Cert.Sage.edgeK (rowsAt (H2 x0 x1 x2 x3 x4 x5 x6 x7) (src x1)) (rowsAt (H2 x0 x1 x2 x3 x4 x5 x6 x7) (dst x1))
      (wLeft x8) (wRight x8) x9 (wCol x10) x11)
    shapeCasts_S800000x1_S800000

variable (m : (ℓ : Loc nD τ sig) → Buf (Elt Ideal) ℓ) (ρ : Dev nD → PrngReg) (c : Dev nD)

/-! ## At the first launch -/
theorem at1_v1 : W1 m ρ c (Proc.devRef .tc main_v1) = src (m ((c : Thread nD τ).loc main_arg1)) := s0_v1 (W0 m ρ c)
theorem at1_v3 : W1 m ρ c (Proc.devRef .tc main_v3) = dst (m ((c : Thread nD τ).loc main_arg1)) := s0_v3 (W0 m ρ c)
theorem at1_v12 : W1 m ρ c (Proc.devRef .tc main_v12) = invOf (dst (m ((c : Thread nD τ).loc main_arg1))) := s0_v12 (W0 m ρ c)
theorem at1_v14 : W1 m ρ c (Proc.devRef .tc main_v14) = wT (m ((c : Thread nD τ).loc main_arg2)) := s0_v14 (W0 m ρ c)
theorem at1_v16 : W1 m ρ c (Proc.devRef .tc main_v16) = wT (m ((c : Thread nD τ).loc main_arg4)) := s0_v16 (W0 m ρ c)
theorem at1_v18 : W1 m ρ c (Proc.devRef .tc main_v18) = wT (m ((c : Thread nD τ).loc main_arg5)) := s0_v18 (W0 m ρ c)
theorem at1_v20 : W1 m ρ c (Proc.devRef .tc main_v20) = wT (m ((c : Thread nD τ).loc main_arg7)) := s0_v20 (W0 m ρ c)
theorem at1_v21 : W1 m ρ c (Proc.devRef .tc main_v21) = narrow (m ((c : Thread nD τ).loc main_arg0)) := s0_v21 (W0 m ρ c)
theorem at1_v32 : W1 m ρ c (Proc.devRef .tc main_v32) = aggrOf (src (m ((c : Thread nD τ).loc main_arg1))) (dst (m ((c : Thread nD τ).loc main_arg1))) (narrow (m ((c : Thread nD τ).loc main_arg0))) := s0_v32 (W0 m ρ c)
theorem at1_arg3 : W1 m ρ c (Proc.devRef .tc main_arg3) = (m ((c : Thread nD τ).loc main_arg3)) := s0_arg3 (W0 m ρ c)
theorem at1_arg6 : W1 m ρ c (Proc.devRef .tc main_arg6) = (m ((c : Thread nD τ).loc main_arg6)) := s0_arg6 (W0 m ρ c)
theorem at1_arg8 : W1 m ρ c (Proc.devRef .tc main_arg8) = (m ((c : Thread nD τ).loc main_arg8)) := s0_arg8 (W0 m ρ c)
theorem at1_arg9 : W1 m ρ c (Proc.devRef .tc main_arg9) = (m ((c : Thread nD τ).loc main_arg9)) := s0_arg9 (W0 m ρ c)
theorem at1_arg10 : W1 m ρ c (Proc.devRef .tc main_arg10) = (m ((c : Thread nD τ).loc main_arg10)) := s0_arg10 (W0 m ρ c)
theorem at1_arg11 : W1 m ρ c (Proc.devRef .tc main_arg11) = (m ((c : Thread nD τ).loc main_arg11)) := s0_arg11 (W0 m ρ c)

/-! ## After the first launch -/

variable (h0 : ∀ (V : Entry) (c : Dev nD), (dat0 (F := Ideal) V c).arrAt 6 cfg0.N
    = Cert.Sage.layerK (V c main_v32) (V c main_v12) (V c main_v21) (V c main_v14) (V c main_arg3) (V c main_v16))

include h0 in
theorem at2_v33 : W2 m ρ c (Proc.devRef .tc main_v33) = H1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 6).trans ((h0 (V1 m ρ) c).trans ?_)
  show Cert.Sage.layerK (W1 m ρ c (Proc.devRef .tc main_v32)) (W1 m ρ c (Proc.devRef .tc main_v12)) (W1 m ρ c (Proc.devRef .tc main_v21)) (W1 m ρ c (Proc.devRef .tc main_v14)) (W1 m ρ c (Proc.devRef .tc main_arg3)) (W1 m ρ c (Proc.devRef .tc main_v16)) = _
  rw [at1_v32, at1_v12, at1_v21, at1_v14, at1_arg3, at1_v16]
  rfl
theorem at2_v1 : W2 m ρ c (Proc.devRef .tc main_v1) = src (m ((c : Thread nD τ).loc main_arg1)) := (W2_of_ne m ρ c main_v1 (by decide)).trans (at1_v1 m ρ c)
theorem at2_v3 : W2 m ρ c (Proc.devRef .tc main_v3) = dst (m ((c : Thread nD τ).loc main_arg1)) := (W2_of_ne m ρ c main_v3 (by decide)).trans (at1_v3 m ρ c)
theorem at2_v12 : W2 m ρ c (Proc.devRef .tc main_v12) = invOf (dst (m ((c : Thread nD τ).loc main_arg1))) :=
  ((W2_arr m ρ c 1).trans (((dat0 (V1 m ρ) c).arrAt_in 1 rfl _).trans (A_eq0 (V1 m ρ) c 1))).trans (at1_v12 m ρ c)
theorem at2_v18 : W2 m ρ c (Proc.devRef .tc main_v18) = wT (m ((c : Thread nD τ).loc main_arg5)) := (W2_of_ne m ρ c main_v18 (by decide)).trans (at1_v18 m ρ c)
theorem at2_v20 : W2 m ρ c (Proc.devRef .tc main_v20) = wT (m ((c : Thread nD τ).loc main_arg7)) := (W2_of_ne m ρ c main_v20 (by decide)).trans (at1_v20 m ρ c)
theorem at2_arg6 : W2 m ρ c (Proc.devRef .tc main_arg6) = (m ((c : Thread nD τ).loc main_arg6)) := (W2_of_ne m ρ c main_arg6 (by decide)).trans (at1_arg6 m ρ c)
theorem at2_arg8 : W2 m ρ c (Proc.devRef .tc main_arg8) = (m ((c : Thread nD τ).loc main_arg8)) := (W2_of_ne m ρ c main_arg8 (by decide)).trans (at1_arg8 m ρ c)
theorem at2_arg9 : W2 m ρ c (Proc.devRef .tc main_arg9) = (m ((c : Thread nD τ).loc main_arg9)) := (W2_of_ne m ρ c main_arg9 (by decide)).trans (at1_arg9 m ρ c)
theorem at2_arg10 : W2 m ρ c (Proc.devRef .tc main_arg10) = (m ((c : Thread nD τ).loc main_arg10)) := (W2_of_ne m ρ c main_arg10 (by decide)).trans (at1_arg10 m ρ c)
theorem at2_arg11 : W2 m ρ c (Proc.devRef .tc main_arg11) = (m ((c : Thread nD τ).loc main_arg11)) := (W2_of_ne m ρ c main_arg11 (by decide)).trans (at1_arg11 m ρ c)

/-! ## At the second launch -/

include h0 in
theorem at3_v44 : W3 m ρ c (Proc.devRef .tc main_v44) = aggrOf (src (m ((c : Thread nD τ).loc main_arg1))) (dst (m ((c : Thread nD τ).loc main_arg1))) (H1 (m ((c : Thread nD τ).loc main_arg0)) (m ((c : Thread nD τ).loc main_arg1)) (m ((c : Thread nD τ).loc main_arg2)) (m ((c : Thread nD τ).loc main_arg3)) (m ((c : Thread nD τ).loc main_arg4))) := by
  refine (s1_v44 (W2 m ρ c)).trans ?_
  rw [at2_v1, at2_v3, at2_v33 m ρ c h0]
include h0 in
theorem at3_v33 : W3 m ρ c (Proc.devRef .tc main_v33) = H1 (m ((c : Thread nD τ).loc main_arg0)) (m ((c : Thread nD τ).loc main_arg1)) (m ((c : Thread nD τ).loc main_arg2)) (m ((c : Thread nD τ).loc main_arg3)) (m ((c : Thread nD τ).loc main_arg4)) := (s1_v33 (W2 m ρ c)).trans (at2_v33 m ρ c h0)
theorem at3_v1 : W3 m ρ c (Proc.devRef .tc main_v1) = src (m ((c : Thread nD τ).loc main_arg1)) := (s1_v1 (W2 m ρ c)).trans (at2_v1 m ρ c)
theorem at3_v3 : W3 m ρ c (Proc.devRef .tc main_v3) = dst (m ((c : Thread nD τ).loc main_arg1)) := (s1_v3 (W2 m ρ c)).trans (at2_v3 m ρ c)
theorem at3_v12 : W3 m ρ c (Proc.devRef .tc main_v12) = invOf (dst (m ((c : Thread nD τ).loc main_arg1))) := (s1_v12 (W2 m ρ c)).trans (at2_v12 m ρ c)
theorem at3_v18 : W3 m ρ c (Proc.devRef .tc main_v18) = wT (m ((c : Thread nD τ).loc main_arg5)) := (s1_v18 (W2 m ρ c)).trans (at2_v18 m ρ c)
theorem at3_v20 : W3 m ρ c (Proc.devRef .tc main_v20) = wT (m ((c : Thread nD τ).loc main_arg7)) := (s1_v20 (W2 m ρ c)).trans (at2_v20 m ρ c)
theorem at3_arg6 : W3 m ρ c (Proc.devRef .tc main_arg6) = (m ((c : Thread nD τ).loc main_arg6)) := (s1_arg6 (W2 m ρ c)).trans (at2_arg6 m ρ c)
theorem at3_arg8 : W3 m ρ c (Proc.devRef .tc main_arg8) = (m ((c : Thread nD τ).loc main_arg8)) := (s1_arg8 (W2 m ρ c)).trans (at2_arg8 m ρ c)
theorem at3_arg9 : W3 m ρ c (Proc.devRef .tc main_arg9) = (m ((c : Thread nD τ).loc main_arg9)) := (s1_arg9 (W2 m ρ c)).trans (at2_arg9 m ρ c)
theorem at3_arg10 : W3 m ρ c (Proc.devRef .tc main_arg10) = (m ((c : Thread nD τ).loc main_arg10)) := (s1_arg10 (W2 m ρ c)).trans (at2_arg10 m ρ c)
theorem at3_arg11 : W3 m ρ c (Proc.devRef .tc main_arg11) = (m ((c : Thread nD τ).loc main_arg11)) := (s1_arg11 (W2 m ρ c)).trans (at2_arg11 m ρ c)

/-! ## After the second launch -/

variable (h1 : ∀ (V : Entry) (c : Dev nD), (dat1 (F := Ideal) V c).arrAt 6 cfg1.N
    = Cert.Sage.layerK (V c main_v44) (V c main_v12) (V c main_v33) (V c main_v18) (V c main_arg6) (V c main_v20))

include h0 h1 in
theorem at4_v45 : W4 m ρ c (Proc.devRef .tc main_v45) = H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 6).trans ((h1 (V3 m ρ) c).trans ?_)
  show Cert.Sage.layerK (W3 m ρ c (Proc.devRef .tc main_v44)) (W3 m ρ c (Proc.devRef .tc main_v12)) (W3 m ρ c (Proc.devRef .tc main_v33)) (W3 m ρ c (Proc.devRef .tc main_v18)) (W3 m ρ c (Proc.devRef .tc main_arg6)) (W3 m ρ c (Proc.devRef .tc main_v20)) = _
  rw [at3_v44 m ρ c h0, at3_v12, at3_v33 m ρ c h0, at3_v18, at3_arg6, at3_v20]
  rfl
theorem at4_v1 : W4 m ρ c (Proc.devRef .tc main_v1) = src (m ((c : Thread nD τ).loc main_arg1)) := (W4_of_ne m ρ c main_v1 (by decide)).trans (at3_v1 m ρ c)
theorem at4_v3 : W4 m ρ c (Proc.devRef .tc main_v3) = dst (m ((c : Thread nD τ).loc main_arg1)) := (W4_of_ne m ρ c main_v3 (by decide)).trans (at3_v3 m ρ c)
theorem at4_arg8 : W4 m ρ c (Proc.devRef .tc main_arg8) = (m ((c : Thread nD τ).loc main_arg8)) := (W4_of_ne m ρ c main_arg8 (by decide)).trans (at3_arg8 m ρ c)
theorem at4_arg9 : W4 m ρ c (Proc.devRef .tc main_arg9) = (m ((c : Thread nD τ).loc main_arg9)) := (W4_of_ne m ρ c main_arg9 (by decide)).trans (at3_arg9 m ρ c)
theorem at4_arg10 : W4 m ρ c (Proc.devRef .tc main_arg10) = (m ((c : Thread nD τ).loc main_arg10)) := (W4_of_ne m ρ c main_arg10 (by decide)).trans (at3_arg10 m ρ c)
theorem at4_arg11 : W4 m ρ c (Proc.devRef .tc main_arg11) = (m ((c : Thread nD τ).loc main_arg11)) := (W4_of_ne m ρ c main_arg11 (by decide)).trans (at3_arg11 m ρ c)

/-! ## At the third launch -/

include h0 h1 in
theorem at5_v52 : W5 m ρ c (Proc.devRef .tc main_v52) = rowsAt (H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (src (m ((c : Thread nD τ).loc main_arg1))) := by
  refine (s2_v52 (W4 m ρ c)).trans ?_
  rw [at4_v45 m ρ c h0 h1, at4_v1]
include h0 h1 in
theorem at5_v59 : W5 m ρ c (Proc.devRef .tc main_v59) = rowsAt (H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (dst (m ((c : Thread nD τ).loc main_arg1))) := by
  refine (s2_v59 (W4 m ρ c)).trans ?_
  rw [at4_v45 m ρ c h0 h1, at4_v3]
theorem at5_v62 : W5 m ρ c (Proc.devRef .tc main_v62) = wLeft (m ((c : Thread nD τ).loc main_arg8)) := (s2_v62 (W4 m ρ c)).trans (congrArg wLeft (at4_arg8 m ρ c))
theorem at5_v65 : W5 m ρ c (Proc.devRef .tc main_v65) = wRight (m ((c : Thread nD τ).loc main_arg8)) := (s2_v65 (W4 m ρ c)).trans (congrArg wRight (at4_arg8 m ρ c))
theorem at5_v67 : W5 m ρ c (Proc.devRef .tc main_v67) = wCol (m ((c : Thread nD τ).loc main_arg10)) := (s2_v67 (W4 m ρ c)).trans (congrArg wCol (at4_arg10 m ρ c))
theorem at5_arg9 : W5 m ρ c (Proc.devRef .tc main_arg9) = (m ((c : Thread nD τ).loc main_arg9)) := (s2_arg9 (W4 m ρ c)).trans (at4_arg9 m ρ c)
theorem at5_arg11 : W5 m ρ c (Proc.devRef .tc main_arg11) = (m ((c : Thread nD τ).loc main_arg11)) := (s2_arg11 (W4 m ρ c)).trans (at4_arg11 m ρ c)

/-! ## After the third launch, and at the return -/

variable (h2 : ∀ (V : Entry) (c : Dev nD), (dat2 (F := Ideal) V c).arrAt 7 cfg2.N
    = Cert.Sage.edgeK (V c main_v52) (V c main_v59) (V c main_v62) (V c main_v65) (V c main_arg9) (V c main_v67) (V c main_arg11))

include h0 h1 h2 in
/-- The result buffer at the return is the network of the arguments. -/
theorem result_eq : W7 m ρ c (Proc.devRef .tc main_v69) = OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (s3_v69 (W6 m ρ c)).trans ?_
  refine congrArg (fun z => shapeCast S800000 z shapeCasts_S800000x1_S800000) ?_
  refine (W6_arr m ρ c 7).trans ((h2 (V5 m ρ) c).trans ?_)
  show Cert.Sage.edgeK (W5 m ρ c (Proc.devRef .tc main_v52)) (W5 m ρ c (Proc.devRef .tc main_v59)) (W5 m ρ c (Proc.devRef .tc main_v62)) (W5 m ρ c (Proc.devRef .tc main_v65)) (W5 m ρ c (Proc.devRef .tc main_arg9)) (W5 m ρ c (Proc.devRef .tc main_v67)) (W5 m ρ c (Proc.devRef .tc main_arg11)) = _
  rw [at5_v52 m ρ c h0 h1, at5_v59 m ρ c h0 h1, at5_v62, at5_v65, at5_arg9, at5_v67, at5_arg11]

end Cert.KernelIdeal.KernelValue

end
-- ==== Proof.Bridge.lean ====
/-
  The tiled program's network is the model.

  The transposed weights read at (k, q) are the weights at (q, k), the two transposed halves of the scorer's
  first weight read at (k, i) are that weight at (i, k) and at (i, 128 + k), the reciprocal-degree column read at
  row p is 1 / max(deg p, 1), a change of float format is the identity on the extended reals, and the last
  reshape reads entry e of the one-column score matrix. With these the two layers and the scorer in the tiled
  spelling are the layers and the scorer of the model, over the tiled program's own neighbour sum and end-point
  gathers.
-/
import proofs.«132477_j85744727097864_2_alg».proof.Proof.KernelValue
import Idealize.ShloMosaic.Lib.Pipeline.Value
import Idealize.ShloMosaic.Lib.ValueIdx
import Idealize.ShloMosaic.Lib.ValueLayout

set_option maxRecDepth 16384

noncomputable section

namespace Cert.KernelIdeal.Bridge

open Cert.KernelIdeal Cert.KernelIdeal.Gen Cert.KernelIdeal.HostValue Cert.KernelIdeal.KernelValue
open Idealize.ShloMosaic Idealize.ShloMosaic.ValueIdx

/-! ## The host pieces read at an index -/

/-- Narrowing a float format is the identity on the extended reals. -/
theorem truncf_id {s : Shape} (x : FVec Ideal s .f32) : truncf .bf16 x bitsLt_bf16_f32 = x := rfl

/-- Widening a float format is the identity on the extended reals. -/
theorem extf_id {s : Shape} (x : FVec Ideal s .bf16) : extf .f32 x bitsLt_bf16_f32 = x := rfl

/-- A transposed square weight at (k, q) is the weight at (q, k). -/
theorem wT_apply (W : (⟨S128x128, .f32⟩ : BufTy).Contents (Elt Ideal)) (k q : Fin 128) : wT W (ix2 k q) = W (ix2 q k) :=
  transpose_ix2_apply W transposes_S128x128_S128x128_1_0 k q

/-- The transposed left half of the scorer's first weight at (k, i) is the weight at (i, k). -/
theorem wLeft_apply (W : (⟨S128x256, .f32⟩ : BufTy).Contents (Elt Ideal)) (k i : Fin 128) :
    wLeft W (ix2 k i) = W (ix2 i (Fin.castAdd 128 k)) := by
  refine (transpose_ix2_apply (extractStridedSlice S128x128 ![0, 0] W slices_S128x256_S128x128_0_0)
    transposes_S128x128_S128x128_1_0 k i).trans ?_
  exact extractStridedSlice_apply ![0, 0] W slices_S128x256_S128x128_0_0 (ix2 i k) (ix2 i (Fin.castAdd 128 k))
    (fun a => match a with
      | ⟨0, _⟩ => by show i.val = 0 + i.val; omega
      | ⟨1, _⟩ => by show k.val = 0 + k.val; omega)

/-- The transposed right half of the scorer's first weight at (k, i) is the weight at (i, 128 + k). -/
theorem wRight_apply (W : (⟨S128x256, .f32⟩ : BufTy).Contents (Elt Ideal)) (k i : Fin 128) :
    wRight W (ix2 k i) = W (ix2 i (Fin.natAdd 128 k)) := by
  refine (transpose_ix2_apply (extractStridedSlice S128x128 ![0, 128] W slices_S128x256_S128x128_0_128)
    transposes_S128x128_S128x128_1_0 k i).trans ?_
  exact extractStridedSlice_apply ![0, 128] W slices_S128x256_S128x128_0_128 (ix2 i k) (ix2 i (Fin.natAdd 128 k))
    (fun a => match a with
      | ⟨0, _⟩ => by show i.val = 0 + i.val; omega
      | ⟨1, _⟩ => by show 128 + k.val = 128 + k.val; rfl)

/-- The scorer's second weight as a column, at row i, is the weight at (0, i). -/
theorem wCol_apply (W : (⟨S1x128, .f32⟩ : BufTy).Contents (Elt Ideal)) (i : Fin 128) : wCol W (ix2 i 0) = W (ix2 0 i) :=
  transpose_ix2_apply W transposes_S1x128_S128x1_1_0 i 0

/-- A host quotient of two arrays, entry by entry. -/
theorem hostDivf_at {s : Shape} (a b : FVec Ideal s .f32) (i : s.Idx) : Host.divf a b i = Ideal.div (a i) (b i) := rfl

/-- The reciprocal-degree column at row p is one over the in-degree of p clamped below at one. -/
theorem invOf_apply (d : (⟨S800000, .i32⟩ : BufTy).Contents (Elt Ideal)) (p : Fin 100000) :
    invOf d (ix2 p 0) = Ideal.div 1 (max (degOf d (ix1 p)) 1) := by
  have hc : shapeCast S100000x1 (degOf d) shapeCasts_S100000_S100000x1 (ix2 p 0) = degOf d (ix1 p) :=
    shapeCast_apply (degOf d) shapeCasts_S100000_S100000x1 (ix2 p 0) (ix1 p)
      (by rewrite [Shape.rowMajor_val_two, Shape.rowMajor_val_one]; show p.val = p.val * 1 + 0; omega)
  have h1 : ∀ j : S100000x1.Idx,
      broadcastInDim S100000x1 ![] bcast_S_S100000x1 (constant (F := Ideal) S_ .f32 0x3F800000#32) j = 1 := fun j =>
    (broadcastInDim_apply _ bcast_S_S100000x1 (constant (F := Ideal) S_ .f32 0x3F800000#32) j ix0 (fun a => a.elim0)).trans
      Cert.Sage.ofBits_one
  unfold invOf
  rw [hostDivf_at, maximumf_apply, h1, hc]

/-- The last reshape reads entry e of the one-column matrix. -/
theorem dropCol_apply (Z : (⟨S800000x1, .f32⟩ : BufTy).Contents (Elt Ideal)) (e : Fin 800000) :
    shapeCast S800000 Z shapeCasts_S800000x1_S800000 (ix1 e) = Z (ix2 e 0) :=
  shapeCast_apply Z shapeCasts_S800000x1_S800000 (ix1 e) (ix2 e 0)
    (by rewrite [Shape.rowMajor_val_two, Shape.rowMajor_val_one]; show e.val * 1 + 0 = e.val; omega)

/-! ## The tiled program's own neighbour sum, end-point gathers and degree -/

/-- The neighbour sums of a feature matrix. -/
def aggrK (x1 : (⟨S2x800000, .i32⟩ : BufTy).Contents (Elt Ideal)) : Cert.Sage.Mat 100000 128 → Cert.Sage.Mat 100000 128 :=
  fun X => aggrOf (src x1) (dst x1) X

/-- A feature matrix read at every edge's source. -/
def gsK (x1 : (⟨S2x800000, .i32⟩ : BufTy).Contents (Elt Ideal)) : Cert.Sage.Mat 100000 128 → Cert.Sage.Mat 800000 128 :=
  fun X => rowsAt X (src x1)

/-- A feature matrix read at every edge's destination. -/
def gdK (x1 : (⟨S2x800000, .i32⟩ : BufTy).Contents (Elt Ideal)) : Cert.Sage.Mat 100000 128 → Cert.Sage.Mat 800000 128 :=
  fun X => rowsAt X (dst x1)

/-- The in-degree. -/
def degK (x1 : (⟨S2x800000, .i32⟩ : BufTy).Contents (Elt Ideal)) : Cert.Sage.Vct 100000 := degOf (dst x1)

/-! ## The network -/

/-- The first layer in the tiled spelling is the model's first layer. -/
theorem H1_eq (x0 : (⟨S100000x128, .f32⟩ : BufTy).Contents (Elt Ideal)) (x1 : (⟨S2x800000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) :
    H1 x0 x1 x2 x3 x4 = Cert.Sage.layer (aggrK x1 x0) (degK x1) x0 x2 x3 x4 :=
  Cert.Sage.layerK_eq_layer _ _ (degK x1) _ _ x2 x3 _ x4 (invOf_apply (dst x1)) (wT_apply x2) (wT_apply x4)

/-- The second layer in the tiled spelling is the model's second layer. -/
theorem H2_eq (x0 : (⟨S100000x128, .f32⟩ : BufTy).Contents (Elt Ideal)) (x1 : (⟨S2x800000, .i32⟩ : BufTy).Contents (Elt Ideal)) (x2 : (⟨S128x128, .f32⟩ : BufTy).Contents (Elt Ideal))
    (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) :
    H2 x0 x1 x2 x3 x4 x5 x6 x7
      = Cert.Sage.layer (aggrK x1 (Cert.Sage.layer (aggrK x1 x0) (degK x1) x0 x2 x3 x4)) (degK x1)
          (Cert.Sage.layer (aggrK x1 x0) (degK x1) x0 x2 x3 x4) x5 x6 x7 := by
  unfold H2
  rw [H1_eq]
  exact Cert.Sage.layerK_eq_layer _ _ (degK x1) _ _ x5 x6 _ x7 (invOf_apply (dst x1)) (wT_apply x5) (wT_apply x7)

/-- The tiled program's network is the model over its own neighbour sum, gathers and degree. -/
theorem OUT_eq (x0 : (⟨S100000x128, .f32⟩ : BufTy).Contents (Elt Ideal)) (x1 : (⟨S2x800000, .i32⟩ : BufTy).Contents (Elt Ideal)) (x2 : (⟨S128x128, .f32⟩ : BufTy).Contents (Elt Ideal))
    (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal))
    (x8 : (⟨S128x256, .f32⟩ : BufTy).Contents (Elt Ideal)) (x9 : (⟨S128, .f32⟩ : BufTy).Contents (Elt Ideal)) (x10 : (⟨S1x128, .f32⟩ : BufTy).Contents (Elt Ideal)) (x11 : (⟨S1, .f32⟩ : BufTy).Contents (Elt Ideal)) :
    OUT x0 x1 x2 x3 x4 x5 x6 x7 x8 x9 x10 x11
      = Cert.Sage.model (aggrK x1) (gsK x1) (gdK x1) (degK x1) x0 x2 x3 x4 x5 x6 x7 x8 x9 x10 x11 := by
  funext j
  obtain ⟨e, rfl⟩ : ∃ e : Fin 800000, j = ix1 e := ⟨j 0, eq_ix1 j⟩
  unfold OUT Cert.Sage.model
  rw [dropCol_apply, H2_eq, Cert.Sage.edge_ix1, Cert.Sage.edgeK_ix2]
  exact Cert.Sage.edgeKAt_eq_edgeAt _ _ _ _ x8 x9 _ x10 x11 (wLeft_apply x8) (wRight_apply x8) (wCol_apply x10) e

end Cert.KernelIdeal.Bridge

end
-- ==== Proof.RefLayer.lean ====
/-
  The plain program's graph layer, read back as the layer of the specification.

  The program computes a layer as relu( (A / max(deg, 1)) · Wlᵀ + b + X · Wrᵀ ) with A the scatter-add of the
  gathered rows of X and deg the scatter-add of ones; read at an entry (p, q) every stage but the gather and the two
  scatter-adds is a function of one entry of its operands, the two products are sums over the 128 columns, and
  (S₁ + b) + S₂ = (S₁ + S₂) + b.
-/
import proofs.«132477_j85744727097864_2_alg».proof.Proof.Gen.ReferenceIdeal.Read
import proofs.«132477_j85744727097864_2_alg».proof.Proof.Spec

set_option maxRecDepth 16384

noncomputable section

namespace Cert.ReferenceIdeal.RefValue

open Cert.ReferenceIdeal Cert.ReferenceIdeal.Gen Cert.ReferenceIdeal.Read Idealize.ShloMosaic Idealize.ShloMosaic.ValueIdx Idealize.ShloMosaic.TcCoe Idealize.SL.Sem Idealize.ShloMosaic.StableHlo

/-- The neighbour sum of a feature matrix: its rows gathered at every edge's source, added up at the edge's destination. -/
def aggr (x1 : (⟨S2x800000, .i32⟩ : BufTy).Contents (Elt Ideal)) : Cert.Sage.Mat 100000 128 → Cert.Sage.Mat 100000 128 := fun X =>
  Host.scatterAdd (F := Ideal) (φ := .f32) scatter_S100000x128_S800000x1_S800000x128_1_0_0_1 (Read.val_main_v11 (F := Ideal)) (Read.val_main_v12 x1) (Host.gather gather_S100000x128_S800000x1_S800000x128_1_0_n_n_0_1_1128 X (Read.val_main_v9 x1))

/-- A feature matrix read at every edge's source. -/
def gs (x1 : (⟨S2x800000, .i32⟩ : BufTy).Contents (Elt Ideal)) : Cert.Sage.Mat 100000 128 → Cert.Sage.Mat 800000 128 := fun X =>
  Host.gather gather_S100000x128_S800000x1_S800000x128_1_0_n_n_0_1_1128 X (Read.val_main_v65 x1)

/-- A feature matrix read at every edge's destination. -/
def gd (x1 : (⟨S2x800000, .i32⟩ : BufTy).Contents (Elt Ideal)) : Cert.Sage.Mat 100000 128 → Cert.Sage.Mat 800000 128 := fun X =>
  Host.gather gather_S100000x128_S800000x1_S800000x128_1_0_n_n_0_1_1128 X (Read.val_main_v72 x1)

/-- The in-degree: ones added up at every edge's destination. -/
def deg (x1 : (⟨S2x800000, .i32⟩ : BufTy).Contents (Elt Ideal)) : Cert.Sage.Vct 100000 := Read.val_main_v17 x1

/-! ## The index functions of the stages, at an index given by its coordinates -/

theorem lidx24 (p : Fin 100000) (q k : Fin 128) : lidx_main_v24 (ix2 p q) k = ix2 p k :=
  funext fun a => Fin.ext (by match a with | ⟨0, _⟩ => rfl | ⟨1, _⟩ => rfl)
theorem ridx24 (p : Fin 100000) (q k : Fin 128) : ridx_main_v24 (ix2 p q) k = ix2 k q :=
  funext fun a => Fin.ext (by match a with | ⟨0, _⟩ => rfl | ⟨1, _⟩ => rfl)
theorem lidx29 (p : Fin 100000) (q k : Fin 128) : lidx_main_v29 (ix2 p q) k = ix2 p k :=
  funext fun a => Fin.ext (by match a with | ⟨0, _⟩ => rfl | ⟨1, _⟩ => rfl)
theorem ridx29 (p : Fin 100000) (q k : Fin 128) : ridx_main_v29 (ix2 p q) k = ix2 k q :=
  funext fun a => Fin.ext (by match a with | ⟨0, _⟩ => rfl | ⟨1, _⟩ => rfl)
theorem idx23 (k q : Fin 128) : idx_main_v23 (ix2 k q) = ix2 q k :=
  funext fun a => Fin.ext (by match a with | ⟨0, _⟩ => rfl | ⟨1, _⟩ => rfl)
theorem idx28 (k q : Fin 128) : idx_main_v28 (ix2 k q) = ix2 q k :=
  funext fun a => Fin.ext (by match a with | ⟨0, _⟩ => rfl | ⟨1, _⟩ => rfl)
theorem idx21 (p : Fin 100000) (k : Fin 128) : idx_main_v21 (ix2 p k) = ix2 p 0 :=
  funext fun a => Fin.ext (by match a with | ⟨0, _⟩ => rfl | ⟨1, _⟩ => rfl)
theorem idx20 (p : Fin 100000) (z : Fin 1) : idx_main_v20 (ix2 p z) = ix1 p :=
  funext fun a => Fin.ext (by match a with | ⟨0, _⟩ => rfl)
theorem idx26 (p : Fin 100000) (q : Fin 128) : idx_main_v26 (ix2 p q) = ix2 0 q :=
  funext fun a => Fin.ext (by match a with | ⟨0, _⟩ => rfl | ⟨1, _⟩ => rfl)
theorem idx25 (z : Fin 1) (q : Fin 128) : idx_main_v25 (ix2 z q) = ix1 q :=
  funext fun a => Fin.ext (by match a with | ⟨0, _⟩ => rfl)

/-! ## One layer -/

/-- A term of the first product: the neighbour sum over the clamped degree, times the transposed left weight. -/
theorem term24 (x0 : (⟨S100000x128, .f32⟩ : BufTy).Contents (Elt Ideal)) (x1 : (⟨S2x800000, .i32⟩ : BufTy).Contents (Elt Ideal)) (x2 : (⟨S128x128, .f32⟩ : BufTy).Contents (Elt Ideal)) (p : Fin 100000) (q k : Fin 128) :
    (val_main_v22 (F := Ideal) x0 x1) (lidx_main_v24 (ix2 p q) k) * (val_main_v23 (F := Ideal) x2) (ridx_main_v24 (ix2 p q) k)
      = (aggr x1 x0 (ix2 p k) * (max (deg x1 (ix1 p)) 1)⁻¹) * x2 (ix2 q k) := by
  rw [lidx24, ridx24, val_main_v22_apply, val_main_v21_apply, idx21, val_main_v20_apply, idx20, val_main_v19_apply,
    val_main_v18_apply, val_main_cst_3_apply, val_main_v23_apply, idx23, Ideal.hostDivf_def, Ideal.maximumf_def,
    Ideal.ofBits_def, Cert.Sage.ofBits_one, Cert.Sage.div_max_one]
  rfl

/-- A term of the second product: the features times the transposed right weight. -/
theorem term29 (x0 : (⟨S100000x128, .f32⟩ : BufTy).Contents (Elt Ideal)) (x4 : (⟨S128x128, .f32⟩ : BufTy).Contents (Elt Ideal)) (p : Fin 100000) (q k : Fin 128) :
    x0 (lidx_main_v29 (ix2 p q) k) * (val_main_v28 (F := Ideal) x4) (ridx_main_v29 (ix2 p q) k)
      = x0 (ix2 p k) * x4 (ix2 q k) := by
  rw [lidx29, ridx29, val_main_v28_apply, idx28]

/-- The first product at an entry. -/
theorem v24_at (x0 : (⟨S100000x128, .f32⟩ : BufTy).Contents (Elt Ideal)) (x1 : (⟨S2x800000, .i32⟩ : BufTy).Contents (Elt Ideal)) (x2 : (⟨S128x128, .f32⟩ : BufTy).Contents (Elt Ideal)) (p : Fin 100000) (q : Fin 128) :
    val_main_v24 (F := Ideal) x0 x1 x2 (ix2 p q)
      = ∑ k : Fin 128, (aggr x1 x0 (ix2 p k) * (max (deg x1 (ix1 p)) 1)⁻¹) * x2 (ix2 q k) := by
  rw [val_main_v24_apply]
  exact Finset.sum_congr rfl (fun k _ => term24 x0 x1 x2 p q k)

/-- The second product at an entry. -/
theorem v29_at (x0 : (⟨S100000x128, .f32⟩ : BufTy).Contents (Elt Ideal)) (x4 : (⟨S128x128, .f32⟩ : BufTy).Contents (Elt Ideal)) (p : Fin 100000) (q : Fin 128) :
    val_main_v29 (F := Ideal) x0 x4 (ix2 p q) = ∑ k : Fin 128, x0 (ix2 p k) * x4 (ix2 q k) := by
  rw [val_main_v29_apply]
  exact Finset.sum_congr rfl (fun k _ => term29 x0 x4 p q k)

/-- The first layer of the plain program is the layer, whatever the feature matrix. -/
theorem layer_eq (x0 : (⟨S100000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v31 (F := Ideal) x0 x1 x2 x3 x4 = Cert.Sage.layer (aggr x1 x0) (deg x1) x0 x2 x3 x4 := by
  funext j
  obtain ⟨p, q, rfl⟩ : ∃ p q, j = ix2 p q := ⟨j 0, j 1, eq_ix2 j⟩
  rw [Cert.Sage.layer_ix2, Cert.Sage.layerAt, val_main_v31_apply, val_main_v30_apply, val_main_v27_apply,
    v24_at, v29_at, val_main_v26_apply, idx26, val_main_v25_apply, idx25,
    val_main_call0_v0_apply, val_main_call0_cst_apply, Ideal.maximumf_def, Ideal.addf_def, Ideal.addf_def,
    Ideal.ofBits_def, Cert.Sage.ofBits_zero, add_right_comm]

/-- The second layer's stages are the first layer's at the first layer's output and the second weights. -/
theorem v59_eq_v31 (x0 : (⟨S100000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v59 (F := Ideal) x0 x1 x2 x3 x4 x5 x6 x7
      = val_main_v31 (F := Ideal) (val_main_v31 (F := Ideal) x0 x1 x2 x3 x4) x1 x5 x6 x7 := rfl

/-- The two layers of the plain program. -/
theorem layer2_eq (x0 : (⟨S100000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v59 (F := Ideal) x0 x1 x2 x3 x4 x5 x6 x7
      = Cert.Sage.layer (aggr x1 (Cert.Sage.layer (aggr x1 x0) (deg x1) x0 x2 x3 x4)) (deg x1)
          (Cert.Sage.layer (aggr x1 x0) (deg x1) x0 x2 x3 x4) x5 x6 x7 := by
  rw [v59_eq_v31, layer_eq (val_main_v31 (F := Ideal) x0 x1 x2 x3 x4) x1 x5 x6 x7, layer_eq x0 x1 x2 x3 x4]

end Cert.ReferenceIdeal.RefValue

end
-- ==== Proof.RefEdge.lean ====
/-
  The plain program's edge scorer, read back as the scorer of the specification.

  The program joins the source and destination rows of an edge into one 256-wide row, multiplies by the transposed
  first weight, adds the bias, clamps at zero, multiplies by the transposed second weight, adds the second bias and
  takes 1 / (1 + exp(−t)). Read at an edge, the 256-wide sum splits into the columns below 128, which read the
  source rows, and the columns from 128 on, which read the destination rows; 1 / (1 + exp(−t)) is the logistic
  function by definition.
-/
import proofs.«132477_j85744727097864_2_alg».proof.Proof.Gen.ReferenceIdeal.Read
import proofs.«132477_j85744727097864_2_alg».proof.Proof.Spec
import proofs.«132477_j85744727097864_2_alg».proof.Proof.RefLayer
set_option maxRecDepth 16384

noncomputable section

namespace Cert.ReferenceIdeal.RefValue

open Cert.ReferenceIdeal Cert.ReferenceIdeal.Gen Cert.ReferenceIdeal.Read Idealize.ShloMosaic Idealize.ShloMosaic.ValueIdx Idealize.ShloMosaic.TcCoe Idealize.SL.Sem Idealize.ShloMosaic.StableHlo

variable (x0 : (⟨S100000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal))
  (x8 : (⟨S128x256, .f32⟩ : BufTy).Contents (Elt Ideal)) (x9 : (⟨S128, .f32⟩ : BufTy).Contents (Elt Ideal)) (x10 : (⟨S1x128, .f32⟩ : BufTy).Contents (Elt Ideal)) (x11 : (⟨S1, .f32⟩ : BufTy).Contents (Elt Ideal))

/-! ## The index functions of the stages, at an index given by its coordinates -/

theorem lidx76 (e : Fin 800000) (i : Fin 128) (k : Fin 256) : lidx_main_v76 (ix2 e i) k = ix2 e k :=
  funext fun a => Fin.ext (by match a with | ⟨0, _⟩ => rfl | ⟨1, _⟩ => rfl)
theorem ridx76 (e : Fin 800000) (i : Fin 128) (k : Fin 256) : ridx_main_v76 (ix2 e i) k = ix2 k i :=
  funext fun a => Fin.ext (by match a with | ⟨0, _⟩ => rfl | ⟨1, _⟩ => rfl)
theorem idx75 (k : Fin 256) (i : Fin 128) : idx_main_v75 (ix2 k i) = ix2 i k :=
  funext fun a => Fin.ext (by match a with | ⟨0, _⟩ => rfl | ⟨1, _⟩ => rfl)
theorem idx78 (e : Fin 800000) (i : Fin 128) : idx_main_v78 (ix2 e i) = ix2 0 i :=
  funext fun a => Fin.ext (by match a with | ⟨0, _⟩ => rfl | ⟨1, _⟩ => rfl)
theorem idx77 (z : Fin 1) (i : Fin 128) : idx_main_v77 (ix2 z i) = ix1 i :=
  funext fun a => Fin.ext (by match a with | ⟨0, _⟩ => rfl)
theorem lidx82 (e : Fin 800000) (z : Fin 1) (k : Fin 128) : lidx_main_v82 (ix2 e z) k = ix2 e k :=
  funext fun a => Fin.ext (by match a with | ⟨0, _⟩ => rfl | ⟨1, _⟩ => rfl)
theorem ridx82 (e : Fin 800000) (z : Fin 1) (k : Fin 128) : ridx_main_v82 (ix2 e z) k = ix2 k z :=
  funext fun a => Fin.ext (by match a with | ⟨0, _⟩ => rfl | ⟨1, _⟩ => rfl)
theorem idx81 (k : Fin 128) (z : Fin 1) : idx_main_v81 (ix2 k z) = ix2 z k :=
  funext fun a => Fin.ext (by match a with | ⟨0, _⟩ => rfl | ⟨1, _⟩ => rfl)
theorem idx84 (e : Fin 800000) (z : Fin 1) : idx_main_v84 (ix2 e z) = ix2 0 0 :=
  funext fun a => Fin.ext (by match a with | ⟨0, _⟩ => rfl | ⟨1, _⟩ => rfl)
theorem idx83 (a b : Fin 1) : idx_main_v83 (ix2 a b) = ix1 0 :=
  funext fun c => Fin.ext (by match c with | ⟨0, _⟩ => rfl)
theorem idx86 (e : Fin 800000) : idx_main_v86 (ix1 e) = ix2 e 0 :=
  funext fun a => Fin.ext (by match a with | ⟨0, _⟩ => exact Nat.div_one _ | ⟨1, _⟩ => rfl)

/-! ## The joined row -/

/-- A column below 128 of the joined row is the source row's. -/
theorem v74_left (e : Fin 800000) (k : Fin 128) :
    val_main_v74 (F := Ideal) x0 x1 x2 x3 x4 x5 x6 x7 (ix2 e (Fin.castAdd 128 k))
      = gs x1 (val_main_v59 (F := Ideal) x0 x1 x2 x3 x4 x5 x6 x7) (ix2 e k) := by
  unfold val_main_v74
  exact concatenate_pair_apply_left (t := S800000x256) (s₁ := S800000x128) (s₂ := S800000x128) 1 _ _
    concatenates_S800000x128_S800000x128_S800000x256_d1 (ix2 e (Fin.castAdd 128 k) : S800000x256.Idx) rfl
    (ix2 e k : S800000x128.Idx) (fun b => by match b with | ⟨0, _⟩ => rfl | ⟨1, _⟩ => rfl)

/-- A column from 128 on of the joined row is the destination row's. -/
theorem v74_right (e : Fin 800000) (k : Fin 128) :
    val_main_v74 (F := Ideal) x0 x1 x2 x3 x4 x5 x6 x7 (ix2 e (Fin.natAdd 128 k))
      = gd x1 (val_main_v59 (F := Ideal) x0 x1 x2 x3 x4 x5 x6 x7) (ix2 e k) := by
  unfold val_main_v74
  exact concatenate_pair_apply_right (t := S800000x256) (s₁ := S800000x128) (s₂ := S800000x128) 1 _ _
    concatenates_S800000x128_S800000x128_S800000x256_d1 (ix2 e (Fin.natAdd 128 k) : S800000x256.Idx) rfl rfl
    (ix2 e k : S800000x128.Idx)
    (fun b hb => by match b with | ⟨0, _⟩ => rfl | ⟨1, _⟩ => exact absurd rfl hb)
    (by show k.val + 128 = 128 + k.val; omega)

/-! ## The scorer, stage by stage -/

/-- A term of the 256-wide product in a column below 128. -/
theorem term76l (e : Fin 800000) (i k : Fin 128) :
    (val_main_v74 (F := Ideal) x0 x1 x2 x3 x4 x5 x6 x7) (lidx_main_v76 (ix2 e i) (Fin.castAdd 128 k))
        * (val_main_v75 (F := Ideal) x8) (ridx_main_v76 (ix2 e i) (Fin.castAdd 128 k))
      = gs x1 (val_main_v59 (F := Ideal) x0 x1 x2 x3 x4 x5 x6 x7) (ix2 e k) * x8 (ix2 i (Fin.castAdd 128 k)) := by
  rw [lidx76, ridx76, val_main_v75_apply, idx75, v74_left]

/-- A term of the 256-wide product in a column from 128 on. -/
theorem term76r (e : Fin 800000) (i k : Fin 128) :
    (val_main_v74 (F := Ideal) x0 x1 x2 x3 x4 x5 x6 x7) (lidx_main_v76 (ix2 e i) (Fin.natAdd 128 k))
        * (val_main_v75 (F := Ideal) x8) (ridx_main_v76 (ix2 e i) (Fin.natAdd 128 k))
      = gd x1 (val_main_v59 (F := Ideal) x0 x1 x2 x3 x4 x5 x6 x7) (ix2 e k) * x8 (ix2 i (Fin.natAdd 128 k)) := by
  rw [lidx76, ridx76, val_main_v75_apply, idx75, v74_right]

/-- The 256-wide product at an entry: the sum over the source half plus the sum over the destination half. -/
theorem v76_at (e : Fin 800000) (i : Fin 128) :
    val_main_v76 (F := Ideal) x0 x1 x2 x3 x4 x5 x6 x7 x8 (ix2 e i)
      = (∑ k : Fin 128, gs x1 (val_main_v59 (F := Ideal) x0 x1 x2 x3 x4 x5 x6 x7) (ix2 e k) * x8 (ix2 i (Fin.castAdd 128 k)))
        + ∑ k : Fin 128, gd x1 (val_main_v59 (F := Ideal) x0 x1 x2 x3 x4 x5 x6 x7) (ix2 e k) * x8 (ix2 i (Fin.natAdd 128 k)) := by
  rw [val_main_v76_apply]
  refine (Fin.sum_univ_add (a := 128) (b := 128) (fun k =>
    (val_main_v74 (F := Ideal) x0 x1 x2 x3 x4 x5 x6 x7) (lidx_main_v76 (ix2 e i) k)
      * (val_main_v75 (F := Ideal) x8) (ridx_main_v76 (ix2 e i) k))).trans ?_
  exact congrArg₂ (· + ·) (Finset.sum_congr rfl fun k _ => term76l x0 x1 x2 x3 x4 x5 x6 x7 x8 e i k)
    (Finset.sum_congr rfl fun k _ => term76r x0 x1 x2 x3 x4 x5 x6 x7 x8 e i k)

/-- The hidden row of the scorer at an entry. -/
theorem v80_at (e : Fin 800000) (i : Fin 128) :
    val_main_v80 (F := Ideal) x0 x1 x2 x3 x4 x5 x6 x7 x8 x9 (ix2 e i)
      = max (((∑ k : Fin 128, gs x1 (val_main_v59 (F := Ideal) x0 x1 x2 x3 x4 x5 x6 x7) (ix2 e k) * x8 (ix2 i (Fin.castAdd 128 k)))
        + ∑ k : Fin 128, gd x1 (val_main_v59 (F := Ideal) x0 x1 x2 x3 x4 x5 x6 x7) (ix2 e k) * x8 (ix2 i (Fin.natAdd 128 k)))
        + x9 (ix1 i)) 0 := by
  rw [val_main_v80_apply, val_main_v79_apply, v76_at, val_main_v78_apply, idx78, val_main_v77_apply, idx77,
    val_main_call2_v0_apply, val_main_call2_cst_apply, Ideal.maximumf_def, Ideal.addf_def, Ideal.ofBits_def,
    Cert.Sage.ofBits_zero]

/-- A term of the 128-wide product. -/
theorem term82 (e : Fin 800000) (i : Fin 128) :
    (val_main_v80 (F := Ideal) x0 x1 x2 x3 x4 x5 x6 x7 x8 x9) (lidx_main_v82 (ix2 e 0) i)
        * (val_main_v81 (F := Ideal) x10) (ridx_main_v82 (ix2 e 0) i)
      = max (((∑ k : Fin 128, gs x1 (val_main_v59 (F := Ideal) x0 x1 x2 x3 x4 x5 x6 x7) (ix2 e k) * x8 (ix2 i (Fin.castAdd 128 k)))
        + ∑ k : Fin 128, gd x1 (val_main_v59 (F := Ideal) x0 x1 x2 x3 x4 x5 x6 x7) (ix2 e k) * x8 (ix2 i (Fin.natAdd 128 k)))
        + x9 (ix1 i)) 0 * x10 (ix2 0 i) := by
  rw [lidx82, ridx82, v80_at, val_main_v81_apply, idx81]

/-- The score before the logistic function. -/
theorem v85_at (e : Fin 800000) :
    val_main_v85 (F := Ideal) x0 x1 x2 x3 x4 x5 x6 x7 x8 x9 x10 x11 (ix2 e 0)
      = (∑ i : Fin 128,
          max (((∑ k : Fin 128, gs x1 (val_main_v59 (F := Ideal) x0 x1 x2 x3 x4 x5 x6 x7) (ix2 e k) * x8 (ix2 i (Fin.castAdd 128 k)))
            + ∑ k : Fin 128, gd x1 (val_main_v59 (F := Ideal) x0 x1 x2 x3 x4 x5 x6 x7) (ix2 e k) * x8 (ix2 i (Fin.natAdd 128 k)))
            + x9 (ix1 i)) 0 * x10 (ix2 0 i))
        + x11 (ix1 0) := by
  rw [val_main_v85_apply, val_main_v82_apply, val_main_v84_apply, idx84, val_main_v83_apply, idx83, Ideal.addf_def]
  exact congrArg (· + x11 (ix1 0)) (Finset.sum_congr rfl fun i _ => term82 x0 x1 x2 x3 x4 x5 x6 x7 x8 x9 x10 e i)

/-- The plain program's scores are the scorer on the end-point rows of the second layer's output. -/
theorem edge_eq :
    val_main_v92 (F := Ideal) x0 x1 x2 x3 x4 x5 x6 x7 x8 x9 x10 x11
      = Cert.Sage.edge (gs x1 (val_main_v59 (F := Ideal) x0 x1 x2 x3 x4 x5 x6 x7)) (gd x1 (val_main_v59 (F := Ideal) x0 x1 x2 x3 x4 x5 x6 x7))
          x8 x9 x10 x11 := by
  funext j
  obtain ⟨e, rfl⟩ : ∃ e, j = ix1 e := ⟨j 0, eq_ix1 j⟩
  rw [Cert.Sage.edge_ix1, Cert.Sage.edgeAt, val_main_v92_apply, val_main_v91_apply, val_main_cst_15_apply,
    val_main_v90_apply, val_main_v89_apply, val_main_cst_14_apply, val_main_v88_apply, val_main_v87_apply,
    val_main_v86_apply, idx86, v85_at, Ideal.hostDivf_def, Ideal.addf_def, Ideal.hostUnary_exp_def,
    Ideal.hostNegf_def, Ideal.negf_def, Ideal.ofBits_def, Cert.Sage.ofBits_one, Ideal.logistic]

end Cert.ReferenceIdeal.RefValue

end
-- ==== Proof.RefValue.lean ====
/-
  The plain program as the model of the specification: two layers, then the scorer on the end-point rows of every
  edge. Which rows the neighbour sum and the two end-point reads touch is a function of the edge list alone, so they
  enter as the abstract maps of the model.
-/
import proofs.«132477_j85744727097864_2_alg».proof.Proof.Gen.ReferenceIdeal.Read
import proofs.«132477_j85744727097864_2_alg».proof.Proof.Spec
import proofs.«132477_j85744727097864_2_alg».proof.Proof.RefLayer
import proofs.«132477_j85744727097864_2_alg».proof.Proof.RefEdge
set_option maxRecDepth 16384

noncomputable section

namespace Cert.ReferenceIdeal.RefValue

open Cert.ReferenceIdeal Cert.ReferenceIdeal.Gen Cert.ReferenceIdeal.Read Idealize.ShloMosaic Idealize.ShloMosaic.ValueIdx Idealize.ShloMosaic.TcCoe Idealize.SL.Sem Idealize.ShloMosaic.StableHlo

/-- The plain program's result is the model at its neighbour sum, its two end-point reads and its in-degree. -/
theorem ref_eq (x0 : (⟨S100000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal))
    (x8 : (⟨S128x256, .f32⟩ : BufTy).Contents (Elt Ideal)) (x9 : (⟨S128, .f32⟩ : BufTy).Contents (Elt Ideal)) (x10 : (⟨S1x128, .f32⟩ : BufTy).Contents (Elt Ideal)) (x11 : (⟨S1, .f32⟩ : BufTy).Contents (Elt Ideal)) :
    Read.val_main_v92 (F := Ideal) x0 x1 x2 x3 x4 x5 x6 x7 x8 x9 x10 x11
      = Cert.Sage.model (aggr x1) (gs x1) (gd x1) (deg x1) x0 x2 x3 x4 x5 x6 x7 x8 x9 x10 x11 := by
  rw [edge_eq, layer2_eq, Cert.Sage.model]

end Cert.ReferenceIdeal.RefValue

end
-- ==== Proof.Match.lean ====
/-
  The two programs address the graph in the same way.

  Both programs cut the edge list into its source row and its destination row, make a row of node indices
  non-negative (an index below zero counts from the end) and lay it out as a column to address a gather, lay the
  destination row out as a column to address a scatter-add, gather the rows of a feature matrix at the sources or
  at the destinations, add the gathered rows into a zero matrix at the destinations, and add ones into a zero vector
  at the destinations.  Each program spells these operations over its own copies of the shapes, of the dimension
  records and of the side conditions; the copies are the same literals, so the neighbour sum, the two end-point
  gathers and the in-degree of the plain program are those of the tiled program, as whole arrays.  No entry is
  ever read: the gather and the scatter-adds stay closed.
-/
import proofs.«132477_j85744727097864_2_alg».proof.Proof.RefLayer
import proofs.«132477_j85744727097864_2_alg».proof.Proof.Bridge

set_option maxRecDepth 16384

noncomputable section

namespace Cert.Proof.Match

open Idealize.ShloMosaic

/-- The two programs' dimension records are the same records. -/
theorem gatherDims_eq : Cert.ReferenceIdeal.gather_S100000x128_S800000x1_S800000x128_1_0_n_n_0_1_1128
    = Cert.KernelIdeal.gather_S100000x128_S800000x1_S800000x128_1_0_n_n_0_1_1128 := rfl
theorem scatterRows_eq : Cert.ReferenceIdeal.scatter_S100000x128_S800000x1_S800000x128_1_0_0_1
    = Cert.KernelIdeal.scatter_S100000x128_S800000x1_S800000x128_1_0_0_1 := rfl
theorem scatterOnes_eq : Cert.ReferenceIdeal.scatter_S100000_S800000x1_S800000_n_0_0_1
    = Cert.KernelIdeal.scatter_S100000_S800000x1_S800000_n_0_0_1 := rfl

/-- Row 0 of the edge list. -/
theorem src_eq (x1 : (⟨Cert.KernelIdeal.S2x800000, .i32⟩ : BufTy).Contents (Elt Ideal)) :
    Cert.ReferenceIdeal.Read.val_main_v1 (F := Ideal) x1 = Cert.KernelIdeal.HostValue.src x1 := by
  unfold Cert.ReferenceIdeal.Read.val_main_v1 Cert.ReferenceIdeal.Read.val_main_v0 Cert.KernelIdeal.HostValue.src
  rfl

/-- Row 1 of the edge list. -/
theorem dst_eq (x1 : (⟨Cert.KernelIdeal.S2x800000, .i32⟩ : BufTy).Contents (Elt Ideal)) :
    Cert.ReferenceIdeal.Read.val_main_v3 (F := Ideal) x1 = Cert.KernelIdeal.HostValue.dst x1 := by
  unfold Cert.ReferenceIdeal.Read.val_main_v3 Cert.ReferenceIdeal.Read.val_main_v2 Cert.KernelIdeal.HostValue.dst
  rfl

/-- The three address columns for a gather: the row made non-negative, laid out as a column. -/
theorem wrap_v9 (x1 : (⟨Cert.KernelIdeal.S2x800000, .i32⟩ : BufTy).Contents (Elt Ideal)) :
    Cert.ReferenceIdeal.Read.val_main_v9 (F := Ideal) x1 = Cert.KernelIdeal.HostValue.wrap (Cert.KernelIdeal.HostValue.src x1) := by
  unfold Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_c Cert.ReferenceIdeal.Read.val_main_c_0 Cert.KernelIdeal.HostValue.wrap
  rw [src_eq]

theorem wrap_v65 (x1 : (⟨Cert.KernelIdeal.S2x800000, .i32⟩ : BufTy).Contents (Elt Ideal)) :
    Cert.ReferenceIdeal.Read.val_main_v65 (F := Ideal) x1 = Cert.KernelIdeal.HostValue.wrap (Cert.KernelIdeal.HostValue.src x1) := by
  unfold Cert.ReferenceIdeal.Read.val_main_v65 Cert.ReferenceIdeal.Read.val_main_v64 Cert.ReferenceIdeal.Read.val_main_v63
    Cert.ReferenceIdeal.Read.val_main_v62 Cert.ReferenceIdeal.Read.val_main_v61 Cert.ReferenceIdeal.Read.val_main_v60
    Cert.ReferenceIdeal.Read.val_main_c_10 Cert.ReferenceIdeal.Read.val_main_c_11 Cert.KernelIdeal.HostValue.wrap
  rw [src_eq]

theorem wrap_v72 (x1 : (⟨Cert.KernelIdeal.S2x800000, .i32⟩ : BufTy).Contents (Elt Ideal)) :
    Cert.ReferenceIdeal.Read.val_main_v72 (F := Ideal) x1 = Cert.KernelIdeal.HostValue.wrap (Cert.KernelIdeal.HostValue.dst x1) := by
  unfold Cert.ReferenceIdeal.Read.val_main_v72 Cert.ReferenceIdeal.Read.val_main_v71 Cert.ReferenceIdeal.Read.val_main_v70
    Cert.ReferenceIdeal.Read.val_main_v69 Cert.ReferenceIdeal.Read.val_main_v68 Cert.ReferenceIdeal.Read.val_main_v67
    Cert.ReferenceIdeal.Read.val_main_c_12 Cert.ReferenceIdeal.Read.val_main_c_13 Cert.KernelIdeal.HostValue.wrap
  rw [dst_eq]

/-- The two address columns for a scatter-add: the destination row laid out as a column. -/
theorem col_v12 (x1 : (⟨Cert.KernelIdeal.S2x800000, .i32⟩ : BufTy).Contents (Elt Ideal)) :
    Cert.ReferenceIdeal.Read.val_main_v12 (F := Ideal) x1 = Cert.KernelIdeal.HostValue.col (Cert.KernelIdeal.HostValue.dst x1) := by
  unfold Cert.ReferenceIdeal.Read.val_main_v12 Cert.KernelIdeal.HostValue.col
  rw [dst_eq]

theorem col_v16 (x1 : (⟨Cert.KernelIdeal.S2x800000, .i32⟩ : BufTy).Contents (Elt Ideal)) :
    Cert.ReferenceIdeal.Read.val_main_v16 (F := Ideal) x1 = Cert.KernelIdeal.HostValue.col (Cert.KernelIdeal.HostValue.dst x1) := by
  unfold Cert.ReferenceIdeal.Read.val_main_v16 Cert.KernelIdeal.HostValue.col
  rw [dst_eq]

/-- The rows read at every edge's source: one gather of the same matrix at the same addresses. -/
theorem gs_eq (x1 : (⟨Cert.KernelIdeal.S2x800000, .i32⟩ : BufTy).Contents (Elt Ideal)) : Cert.ReferenceIdeal.RefValue.gs x1 = Cert.KernelIdeal.Bridge.gsK x1 := by
  funext X
  unfold Cert.ReferenceIdeal.RefValue.gs Cert.KernelIdeal.Bridge.gsK Cert.KernelIdeal.HostValue.rowsAt
  rw [wrap_v65, gatherDims_eq]

/-- The rows read at every edge's destination: one gather of the same matrix at the same addresses. -/
theorem gd_eq (x1 : (⟨Cert.KernelIdeal.S2x800000, .i32⟩ : BufTy).Contents (Elt Ideal)) : Cert.ReferenceIdeal.RefValue.gd x1 = Cert.KernelIdeal.Bridge.gdK x1 := by
  funext X
  unfold Cert.ReferenceIdeal.RefValue.gd Cert.KernelIdeal.Bridge.gdK Cert.KernelIdeal.HostValue.rowsAt
  rw [wrap_v72, gatherDims_eq]

/-- The in-degree: ones added into a zero vector at the same destinations. -/
theorem deg_eq (x1 : (⟨Cert.KernelIdeal.S2x800000, .i32⟩ : BufTy).Contents (Elt Ideal)) : Cert.ReferenceIdeal.RefValue.deg x1 = Cert.KernelIdeal.Bridge.degK x1 := by
  unfold Cert.ReferenceIdeal.RefValue.deg Cert.KernelIdeal.Bridge.degK Cert.KernelIdeal.HostValue.degOf Cert.ReferenceIdeal.Read.val_main_v17
    Cert.ReferenceIdeal.Read.val_main_v15 Cert.ReferenceIdeal.Read.val_main_v14 Cert.ReferenceIdeal.Read.val_main_cst_2
    Cert.ReferenceIdeal.Read.val_main_cst_1
  rw [col_v16, scatterOnes_eq]

/-- The neighbour sum: the same gathered rows added into a zero matrix at the same destinations; widening the
    gathered rows' float format in between is the identity on the extended reals. -/
theorem aggr_eq (x1 : (⟨Cert.KernelIdeal.S2x800000, .i32⟩ : BufTy).Contents (Elt Ideal)) : Cert.ReferenceIdeal.RefValue.aggr x1 = Cert.KernelIdeal.Bridge.aggrK x1 := by
  funext X
  unfold Cert.ReferenceIdeal.RefValue.aggr Cert.KernelIdeal.Bridge.aggrK Cert.KernelIdeal.HostValue.aggrOf Cert.KernelIdeal.HostValue.rowsAt
    Cert.ReferenceIdeal.Read.val_main_v11 Cert.ReferenceIdeal.Read.val_main_cst
  rw [col_v12, wrap_v9, scatterRows_eq, gatherDims_eq]
  rfl

end Cert.Proof.Match

end
-- ==== Proof.Claims.lean ====
/-
  The five claims.

  The two frames of the tiled program are the walks of its three launches and four host stretches; the plain
  program's frame is its run with the result dropped; the idealized tiled program is the tiled program's own text,
  so nothing is owed for the idealization. For the value claim both programs are run from memories that agree on
  the twelve arguments. The tiled program ends with its result at the network of its arguments in the tiled
  spelling, which is the model over its own neighbour sum, end-point gathers and in-degree; the plain program ends
  with its result at the model over its own; and the two programs' neighbour sums, gathers and degrees are the
  same gather and scatter-add operations of the same edge list. So both results are one array.
-/
import proofs.«132477_j85744727097864_2_alg».proof.Defs
import proofs.«132477_j85744727097864_2_alg».proof.Proof.Gen.Kernel.Frame
import proofs.«132477_j85744727097864_2_alg».proof.Proof.Gen.KernelIdeal.Frame
import proofs.«132477_j85744727097864_2_alg».proof.Proof.Gen.ReferenceIdeal.Run
import proofs.«132477_j85744727097864_2_alg».proof.Proof.Gen.ReferenceIdeal.Read
import proofs.«132477_j85744727097864_2_alg».proof.Proof.Gen.Pre_finite_inputs
import proofs.«132477_j85744727097864_2_alg».proof.Proof.KernelRun
import proofs.«132477_j85744727097864_2_alg».proof.Proof.Region0
import proofs.«132477_j85744727097864_2_alg».proof.Proof.Region1
import proofs.«132477_j85744727097864_2_alg».proof.Proof.Region2
import proofs.«132477_j85744727097864_2_alg».proof.Proof.KernelValue
import proofs.«132477_j85744727097864_2_alg».proof.Proof.Bridge
import proofs.«132477_j85744727097864_2_alg».proof.Proof.RefValue
import proofs.«132477_j85744727097864_2_alg».proof.Proof.Match

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the model of the arguments in their result. -/
theorem algebraic : Cert.algebraic_KernelIdeal_ReferenceIdeal := by
  intro m ρ m' ρ' _ hagree
  refine ⟨fun c => Cert.KernelIdeal.KernelValue.OUT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KernelValue.result_eq m ρ c
          Cert.KernelIdeal.RegionValue.final0 Cert.KernelIdeal.RegionValue.final1 Cert.KernelIdeal.RegionValue.final2),
        (h c).2⟩)
      (Cert.KernelIdeal.ValueRun.run_value m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v92_eq, e0, e1, e2, e3, e4, e5, e6, e7, e8, e9, e10, e11,
      Cert.ReferenceIdeal.RefValue.ref_eq,
      Cert.Proof.Match.aggr_eq, Cert.Proof.Match.gs_eq, Cert.Proof.Match.gd_eq, Cert.Proof.Match.deg_eq]
    exact (Cert.KernelIdeal.Bridge.OUT_eq _ _ _ _ _ _ _ _ _ _ _ _).symm

end Cert.Proof.Claims

end
-- ==== Proof.lean ====
/-
  Two programs score the edges of a graph: two mean-aggregating layers over the node features, then a two-layer
  scorer on the feature rows at both ends of every edge, then the logistic function. One tiles the dense algebra
  into three launches (a layer, the same layer again, the scorer) among host gathers and scatter-adds; the other is
  the plain array program. Read on the extended reals, where a change of float format is the identity and every
  operation is exact, both compute the same array: the tiled program multiplies the neighbour sums by
  1 / max(deg, 1) where the plain one divides by max(deg, 1), it adds the bias after the second product instead of
  before it, and it multiplies the two end-point rows by the two halves of the scorer's first weight instead of
  joining them first — each an identity of sums and products that needs no entry to be finite.
-/
import proofs.«132477_j85744727097864_2_alg».proof.Defs
import proofs.«132477_j85744727097864_2_alg».proof.Proof.Gen.Kernel
import proofs.«132477_j85744727097864_2_alg».proof.Proof.Gen.KernelIdeal
import proofs.«132477_j85744727097864_2_alg».proof.Proof.Gen.ReferenceIdeal
import proofs.«132477_j85744727097864_2_alg».proof.Proof.Gen.Pre_finite_inputs
import proofs.«132477_j85744727097864_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
